-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x128 : Shape := ⟨3, ![8, 4096, 128]⟩
abbrev S8x4096 : Shape := ⟨2, ![8, 4096]⟩
abbrev S_ : Shape := ⟨0, ![]⟩

class Facts : Prop where
  bcast_S_S8x4096x128 : S_.BroadcastsInDim S8x4096x128 (![] : Fin 0 → Fin S8x4096x128.rank)
  reducesTo_S8x4096x128_S_d0_1_2 : S8x4096x128.ReducesTo [0, 1, 2] S_
  h_S_ : 0 < S_.numel
  bcast_S_S8x4096 : S_.BroadcastsInDim S8x4096 (![] : Fin 0 → Fin S8x4096.rank)
  reducesTo_S8x4096_S_d0_1 : S8x4096.ReducesTo [0, 1] S_

variable [Facts]

def fn_part1 {F : FTy → Type} [FloatOps F] (main_v13 : IVec S_ 1) (main_v16 : IVec S8x4096 1) : IVec S_ 1 :=
  let main_c_5 : IVec S_ 1 := constantI S_ 1 1#1
  let main_v17 : IVec S_ 1 := (fun x v => Host.reduce IntOp.andi x v reducesTo_S8x4096_S_d0_1 h_S_) main_v16 main_c_5
  let main_v18 : IVec S_ 1 := andi main_v13 main_v17
  main_v18

def fn {F : FTy → Type} [FloatOps F] (main_arg0 : FVec F S8x4096x128 .f32) (main_arg1 : FVec F S8x4096x128 .f32) (main_arg2 : FVec F S8x4096 .f32) (main_arg3 : FVec F S8x4096 .f32) : IVec S_ 1 :=
  let main_v0 : FVec F S8x4096x128 .f32 := Host.absf main_arg0
  let main_cst : FVec F S_ .f32 := constant S_ .f32 0x7F800000#32
  let main_v1 : FVec F S8x4096x128 .f32 := broadcastInDim S8x4096x128 ![] bcast_S_S8x4096x128 main_cst
  let main_v2 : IVec S8x4096x128 1 := cmpf .olt main_v0 main_v1
  let main_c : IVec S_ 1 := constantI S_ 1 1#1
  let main_v3 : IVec S_ 1 := (fun x v => Host.reduce IntOp.andi x v reducesTo_S8x4096x128_S_d0_1_2 h_S_) main_v2 main_c
  let main_v4 : FVec F S8x4096x128 .f32 := Host.absf main_arg1
  let main_cst_0 : FVec F S_ .f32 := constant S_ .f32 0x7F800000#32
  let main_v5 : FVec F S8x4096x128 .f32 := broadcastInDim S8x4096x128 ![] bcast_S_S8x4096x128 main_cst_0
  let main_v6 : IVec S8x4096x128 1 := cmpf .olt main_v4 main_v5
  let main_c_1 : IVec S_ 1 := constantI S_ 1 1#1
  let main_v7 : IVec S_ 1 := (fun x v => Host.reduce IntOp.andi x v reducesTo_S8x4096x128_S_d0_1_2 h_S_) main_v6 main_c_1
  let main_v8 : IVec S_ 1 := andi main_v3 main_v7
  let main_v9 : FVec F S8x4096 .f32 := Host.absf main_arg2
  let main_cst_2 : FVec F S_ .f32 := constant S_ .f32 0x7F800000#32
  let main_v10 : FVec F S8x4096 .f32 := broadcastInDim S8x4096 ![] bcast_S_S8x4096 main_cst_2
  let main_v11 : IVec S8x4096 1 := cmpf .olt main_v9 main_v10
  let main_c_3 : IVec S_ 1 := constantI S_ 1 1#1
  let main_v12 : IVec S_ 1 := (fun x v => Host.reduce IntOp.andi x v reducesTo_S8x4096_S_d0_1 h_S_) main_v11 main_c_3
  let main_v13 : IVec S_ 1 := andi main_v8 main_v12
  let main_v14 : FVec F S8x4096 .f32 := Host.absf main_arg3
  let main_cst_4 : FVec F S_ .f32 := constant S_ .f32 0x7F800000#32
  let main_v15 : FVec F S8x4096 .f32 := broadcastInDim S8x4096 ![] bcast_S_S8x4096 main_cst_4
  let main_v16 : IVec S8x4096 1 := cmpf .olt main_v14 main_v15
  fn_part1 (F := F) main_v13 main_v16
-- ==== Kernel.lean ====
abbrev S8x4096x128 : Shape := ⟨3, ![8, 4096, 128]⟩
abbrev S8x4096 : Shape := ⟨2, ![8, 4096]⟩
abbrev S8x1x4096 : Shape := ⟨3, ![8, 1, 4096]⟩
abbrev S1x1024x128 : Shape := ⟨3, ![1, 1024, 128]⟩
abbrev S1x1x4096 : Shape := ⟨3, ![1, 1, 4096]⟩
abbrev S1x4096 : Shape := ⟨2, ![1, 4096]⟩
abbrev S1024x128 : Shape := ⟨2, ![1024, 128]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S_ : Shape := ⟨0, ![]⟩

abbrev nBuf : Space → Nat
  | .hbm => 17
  | .vmem => 10
  | .smem => 0
  | _ => 0

abbrev bufTy : (tb : Table) → Fin (tcTables nBuf tb) → BufTy
  | .hbm, ⟨0, _⟩ => ⟨S8x4096x128, .f32⟩
  | .hbm, ⟨1, _⟩ => ⟨S8x4096x128, .f32⟩
  | .hbm, ⟨2, _⟩ => ⟨S8x4096, .f32⟩
  | .hbm, ⟨3, _⟩ => ⟨S8x4096, .f32⟩
  | .hbm, ⟨4, _⟩ => ⟨S8x1x4096, .f32⟩
  | .hbm, ⟨5, _⟩ => ⟨S8x1x4096, .f32⟩
  | .hbm, ⟨6, _⟩ => ⟨S8x4096, .f32⟩
  | .hbm, ⟨7, _⟩ => ⟨S8x4096, .f32⟩
  | .hbm, ⟨8, _⟩ => ⟨S8x4096, .f32⟩
  | .hbm, ⟨9, _⟩ => ⟨S_, .f32⟩
  | .hbm, ⟨10, _⟩ => ⟨S_, .f32⟩
  | .hbm, ⟨11, _⟩ => ⟨S8x4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S1x1024x128, .f32⟩
  | .local _ .vmem, ⟨1, _⟩ => ⟨S1x1024x128, .f32⟩
  | .local _ .vmem, ⟨2, _⟩ => ⟨S1x1024x128, .f32⟩
  | .local _ .vmem, ⟨3, _⟩ => ⟨S1x1024x128, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S1x1x4096, .f32⟩
  | .local _ .vmem, ⟨8, _⟩ => ⟨S1x4096, .f32⟩
  | .local _ .vmem, ⟨9, _⟩ => ⟨S1x4096, .f32⟩
  | _, _ => ⟨S8x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_mult1 (i : grid0.Coords) : BitVec 32 :=
  let arg1 : BitVec 32 := BitVec.ofNat 32 (i 1).val
  let c1024_i32 : BitVec 32 := 1024#32
  let v33 : BitVec 32 := Scalar.muli arg1 c1024_i32
  v33
def k0_mult2 (i : grid0.Coords) : BitVec 32 :=
  let arg2 : BitVec 32 := BitVec.ofNat 32 (i 2).val
  let c1024_i32_13 : BitVec 32 := 1024#32
  let v35 : BitVec 32 := Scalar.muli arg2 c1024_i32_13
  v35
def k0_off1 (i : grid0.Coords) : Fin 2 → Nat :=
  let c0_14 : Index := 0#32
  let arg1 : BitVec 32 := BitVec.ofNat 32 (i 1).val
  let c1024_i32 : BitVec 32 := 1024#32
  let v33 : BitVec 32 := Scalar.muli arg1 c1024_i32
  let v34 : BitVec 32 := v33
  let v37 : Index := Scalar.indexCast v34
  ![0, v37.toNat]
def k0_off2 (i : grid0.Coords) : Fin 2 → Nat :=
  let c0_16 : Index := 0#32
  let arg2 : BitVec 32 := BitVec.ofNat 32 (i 2).val
  let c1024_i32_13 : BitVec 32 := 1024#32
  let v35 : BitVec 32 := Scalar.muli arg2 c1024_i32_13
  let v36 : BitVec 32 := v35
  let v44 : Index := Scalar.indexCast v36
  ![0, v44.toNat]
def k0_cond2 (i : grid0.Coords) : BitVec 1 :=
  let arg1 : BitVec 32 := BitVec.ofNat 32 (i 1).val
  let c3_i32 : BitVec 32 := 3#32
  let v51 : BitVec 1 := Scalar.cmpi .eq arg1 c3_i32
  let arg2 : BitVec 32 := BitVec.ofNat 32 (i 2).val
  let c3_i32_18 : BitVec 32 := 3#32
  let v52 : BitVec 1 := Scalar.cmpi .eq arg2 c3_i32_18
  let v53 : BitVec 1 := Scalar.andi v51 v52
  let v54 : BitVec 32 := Scalar.extui v53
  let c0_i32_19 : BitVec 32 := 0#32
  let v55 : BitVec 1 := Scalar.cmpi .ne v54 c0_i32_19
  v55

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  reduces_S1024x128_S1024 : S1024x128.Reduces [1] S1024
  shapeCasts_S1024_S1024x1 : S1024.ShapeCasts S1024x1
  transposes_S1024x1_p1_0_S1x1024 : S1024x1.Transposes [1, 0] S1x1024
  bitsLt_bf16_f32 : FTy.bits .bf16 < FTy.bits .f32
  broadcasts_S1024x1_S1024x1024 : S1024x1.Broadcasts S1024x1024
  broadcasts_S1x1024_S1024x1024 : S1x1024.Broadcasts S1024x1024
  reduces_S1024x1024_S1024 : S1024x1024.Reduces [1] S1024
  reduces_S1024x1024_S1024_2 : S1024x1024.Reduces [0] S1024
  shapeCasts_S1024_S1x1024 : S1024.ShapeCasts S1x1024
  h_S1x1024 : 0 < S1x1024.numel
  shapeCasts_S1x1024_S1x1024 : S1x1024.ShapeCasts S1x1024
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  shapeCasts_S1x4096_S1x1x4096 : S1x4096.ShapeCasts S1x1x4096
  shapeCasts_S8x1x4096_S8x4096 : S8x1x4096.ShapeCasts S8x4096
  reducesTo_S8x4096_S_d0_1 : S8x4096.ReducesTo [0, 1] S_
  h_S_ : 0 < S_.numel
  dot_S1024x128_S1024x128_S1024x1024_1_1_0_0_n_n_wf : DotDims.WF S1024x128 S1024x128 S1024x1024 [1] [1] [0] [0] [] []
  hrank0 : 0 < grid0.rank
  k0_mult1_dvd : ∀ i : grid0.Coords, 1024 ∣ (k0_mult1 i).toNat
  k0_mult2_dvd : ∀ i : grid0.Coords, 1024 ∣ (k0_mult2 i).toNat
  k0_off1_inb : ∀ i : grid0.Coords, ∀ a, (k0_off1 i) a + S1x1024.size a ≤ S1x4096.size a
  k0_off2_inb : ∀ i : grid0.Coords, ∀ a, (k0_off2 i) a + S1x1024.size a ≤ S1x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S8x4096x128.size a
  hwx0_0 : ∀ i : grid0.Coords, EltTy.bits .f32 = 32 ∨ (Rect.block (s := S8x4096x128) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x128.size a ≤ S8x4096x128.size a
  hwx0_1 : ∀ i : grid0.Coords, EltTy.bits .f32 = 32 ∨ (Rect.block (s := S8x4096x128) S1x1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4096.size a ≤ S8x1x4096.size a
  hwx0_2 : ∀ i : grid0.Coords, EltTy.bits .f32 = 32 ∨ (Rect.block (s := S8x1x4096) S1x1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S8x1x4096.size a
  hwx0_3 : ∀ i : grid0.Coords, EltTy.bits .f32 = 32 ∨ (Rect.block (s := S8x1x4096) S1x1x4096.size (cc0_transform_3 i) (hinb0_3 i)).WholeWords (EltTy.packing .f32)

variable [Facts₀]

def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_arg0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x4096.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x4096x128 : Shape := ⟨3, ![8, 4096, 128]⟩
abbrev S8x4096 : Shape := ⟨2, ![8, 4096]⟩
abbrev S_ : Shape := ⟨0, ![]⟩
abbrev S8x4096x1 : Shape := ⟨3, ![8, 4096, 1]⟩
abbrev S8x1x4096 : Shape := ⟨3, ![8, 1, 4096]⟩
abbrev S8x4096x4096 : Shape := ⟨3, ![8, 4096, 4096]⟩

abbrev nBuf : Space → Nat
  | .hbm => 37
  | .vmem => 0
  | .smem => 0
  | _ => 0

abbrev bufTy : (tb : Table) → Fin (tcTables nBuf tb) → BufTy
  | .hbm, ⟨0, _⟩ => ⟨S8x4096x128, .f32⟩
  | .hbm, ⟨1, _⟩ => ⟨S8x4096x128, .f32⟩
  | .hbm, ⟨2, _⟩ => ⟨S8x4096, .f32⟩
  | .hbm, ⟨3, _⟩ => ⟨S8x4096, .f32⟩
  | .hbm, ⟨4, _⟩ => ⟨S8x4096x128, .f32⟩
  | .hbm, ⟨5, _⟩ => ⟨S_, .f32⟩
  | .hbm, ⟨6, _⟩ => ⟨S8x4096, .f32⟩
  | .hbm, ⟨7, _⟩ => ⟨S8x4096x1, .f32⟩
  | .hbm, ⟨8, _⟩ => ⟨S8x4096x128, .f32⟩
  | .hbm, ⟨9, _⟩ => ⟨S_, .f32⟩
  | .hbm, ⟨10, _⟩ => ⟨S8x4096, .f32⟩
  | .hbm, ⟨11, _⟩ => ⟨S8x1x4096, .f32⟩
  | .hbm, ⟨12, _⟩ => ⟨S8x4096x4096, .f32⟩
  | .hbm, ⟨13, _⟩ => ⟨S8x4096x4096, .f32⟩
  | .hbm, ⟨14, _⟩ => ⟨S8x4096x4096, .f32⟩
  | .hbm, ⟨15, _⟩ => ⟨S8x4096x4096, .f32⟩
  | .hbm, ⟨16, _⟩ => ⟨S_, .f32⟩
  | .hbm, ⟨17, _⟩ => ⟨S8x4096x4096, .f32⟩
  | .hbm, ⟨18, _⟩ => ⟨S8x4096x4096, .f32⟩
  | .hbm, ⟨19, _⟩ => ⟨S8x4096x4096, .f32⟩
  | .hbm, ⟨20, _⟩ => ⟨S_, .f32⟩
  | .hbm, ⟨21, _⟩ => ⟨S8x4096x4096, .f32⟩
  | .hbm, ⟨22, _⟩ => ⟨S8x4096x4096, .f32⟩
  | .hbm, ⟨23, _⟩ => ⟨S8x4096x4096, .f32⟩
  | .hbm, ⟨24, _⟩ => ⟨S_, .f32⟩
  | .hbm, ⟨25, _⟩ => ⟨S8x4096, .f32⟩
  | .hbm, ⟨26, _⟩ => ⟨S_, .f32⟩
  | .hbm, ⟨27, _⟩ => ⟨S8x4096, .f32⟩
  | .hbm, ⟨28, _⟩ => ⟨S8x4096, .f32⟩
  | .hbm, ⟨29, _⟩ => ⟨S_, .f32⟩
  | .hbm, ⟨30, _⟩ => ⟨S_, .f32⟩
  | .hbm, ⟨31, _⟩ => ⟨S8x4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | _, _ => ⟨S8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  reducesTo_S8x4096x128_S8x4096_d2 : S8x4096x128.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096x4096_S8x4096_d1 : S8x4096x4096.ReducesTo [1] S8x4096
  reducesTo_S8x4096_S_d0_1 : S8x4096.ReducesTo [0, 1] S_
  dot_S8x4096x128_S8x4096x128_S8x4096x4096_2_2_1_1_0_0_wf : DotDims.WF S8x4096x128 S8x4096x128 S8x4096x4096 [2] [2] [1] [1] [0] [0]

variable [Facts₀]

def dot_S8x4096x128_S8x4096x128_S8x4096x4096_2_2_1_1_0_0 : DotDims S8x4096x128 S8x4096x128 S8x4096x4096 where
  lhsContracting := [2]
  rhsContracting := [2]
  lhsNonContracting := [1]
  rhsNonContracting := [1]
  lhsBatch := [0]
  rhsBatch := [0]
  wf := dot_S8x4096x128_S8x4096x128_S8x4096x4096_2_2_1_1_0_0_wf

class Facts : Prop extends Facts₀ where

variable [Facts]
-- ==== Proof.TailSpec.lean ====
/-
  The weighted combination of the two rows of minima into one number.

  From the [8, 4096] tables `r` of least distances of the first set's points and `c` of the second set's, and two tables
  of weights `w1`, `w2`, the result is `(Σ w1 · r + Σ w2 · c) / 2`, each sum over all 8 × 4096 entries starting from zero.
  It is stated once, for any reading of floats, so that two programs ending with these same operations can be
  compared by comparing `r` and `c` alone.
-/
import Idealize.ShloMosaic.PureOps

noncomputable section

namespace Cert.Chamfer

open Idealize.ShloMosaic

/-- `(Σ w1 · r + Σ w2 · c) / 2`. -/
def tail {F : FTy → Type} [FloatOps F] (h1 : (⟨2, ![8, 4096]⟩ : Shape).ReducesTo [0, 1] (⟨0, ![]⟩ : Shape)) (h2 : 0 < (⟨0, ![]⟩ : Shape).numel)
    (w1 w2 r c : FVec F ⟨2, ![8, 4096]⟩ .f32) : FVec F ⟨0, ![]⟩ .f32 :=
  Host.divf
    (addf (Host.reduceAdd (mulf w1 r) (constant (F := F) ⟨0, ![]⟩ .f32 0x00000000#32) h1 h2)
      (Host.reduceAdd (mulf w2 c) (constant (F := F) ⟨0, ![]⟩ .f32 0x00000000#32) h1 h2))
    (constant (F := F) ⟨0, ![]⟩ .f32 0x40000000#32)

end Cert.Chamfer

end
-- ==== Proof.Tail.lean ====
/-
  The last host operations of the two programs as one function of the two tables of minima.

  After its region the first program reshapes its two output arrays to [8, 4096] tables, multiplies each by a table of
  weights, sums each product over all entries from zero, adds the two sums and divides by two: the function
  `Chamfer.tail` of the two weight tables and the two reshaped arrays. The second program ends with the same operations
  applied to its own two tables. Neither sum is opened: each side is shown to be that one function at its own arguments.
-/
import proofs.«140551_j84189948936347_2_alg».proof.Proof.Gen.KernelIdeal.Frame
import proofs.«140551_j84189948936347_2_alg».proof.Proof.Gen.ReferenceIdeal.Read
import proofs.«140551_j84189948936347_2_alg».proof.Proof.TailSpec
import Idealize.ShloMosaic.Lib.StableHlo.Run
import Idealize.ShloMosaic.Lib.Pipeline.Value

noncomputable section

namespace Cert.KernelIdeal.TailValue

open Cert.KernelIdeal Cert.KernelIdeal.Gen
open Idealize.ShloMosaic Idealize.ShloMosaic.TcCoe Idealize.SL.Sem

variable {F : FTy → Type} [FloatOps F] (m : (ℓ : Loc nD τ sig) → Buf (Elt F) ℓ) (ρ : Dev nD → PrngReg)

/-- The first output array after the region, reshaped to an [8, 4096] table as the first host operation does. -/
abbrev rows (c : Dev nD) : FVec F S8x4096 .f32 := shapeCast S8x4096 ((dats m 0 c).arrAt 2 cfg0.N) shapeCasts_S8x1x4096_S8x4096
/-- The second output array after the region, reshaped likewise. -/
abbrev cols (c : Dev nD) : FVec F S8x4096 .f32 := shapeCast S8x4096 ((dats m 0 c).arrAt 3 cfg0.N) shapeCasts_S8x1x4096_S8x4096

/-- What the operations after the region leave in the result buffer: the weighted combination of the two reshaped
    output arrays, with the two argument tables as weights. Each operation's result is read at its own buffer; the two
    output arrays are what the region left, the two weight tables what the program was started with. The two arrays are
    then carried as variables, so that the comparison with `Chamfer.tail` is between two short terms and no sum is opened. -/
theorem tail_after (c : Dev nD) :
    Pipeline.afterTail₀ cfgs (dats m) 0 (V0 m) [hostOps1] c main_v8
      = Chamfer.tail reducesTo_S8x4096_S_d0_1 h_S_ (m ((c : Thread nD τ).loc main_arg2)) (m ((c : Thread nD τ).loc main_arg3)) (rows m c) (cols m c) := by
  unfold Pipeline.afterTail₀
  show StableHlo.after hostOps1 _ (Proc.devRef .tc main_v8) = _
  after_results
  rw [Pipeline.withArrays_arr spec0 launch0.win.arr_inj c _ _ 2, Pipeline.withArrays_arr spec0 launch0.win.arr_inj c _ _ 3,
    Pipeline.withArrays_of_ne _ c (V0 m c) _ main_arg2 (by exact (by decide : ∀ w, Pipeline.arrRef spec0 w ≠ main_arg2)),
    Pipeline.withArrays_of_ne _ c (V0 m c) _ main_arg3 (by exact (by decide : ∀ w, Pipeline.arrRef spec0 w ≠ main_arg3))]
  unfold Chamfer.tail rows cols
  generalize (dats m 0 c).arrAt 2 cfg0.N = A2
  generalize (dats m 0 c).arrAt 3 cfg0.N = A3
  have e1 : V0 m c (Proc.devRef .tc main_arg2) = m ((c : Thread nD τ).loc main_arg2) := V_main_arg2 m c
  have e2 : V0 m c (Proc.devRef .tc main_arg3) = m ((c : Thread nD τ).loc main_arg3) := V_main_arg3 m c
  refine congrArg₂ Host.divf (congrArg₂ addf
    (congrArg₂ (fun a b => Host.reduceAdd (mulf a b) (constant S_ .f32 0x00000000#32) reducesTo_S8x4096_S_d0_1 h_S_) e1 ?_)
    (congrArg₂ (fun a b => Host.reduceAdd (mulf a b) (constant S_ .f32 0x00000000#32) reducesTo_S8x4096_S_d0_1 h_S_) e2 ?_)) rfl
  · rfl
  · rfl

/-- The run of the first program: it terminates, its result buffer holds the weighted combination of the two reshaped
    output arrays, and its four argument arrays are as they were. -/
theorem run_value : θ_run defs (onTc (τ := τ) (main (F := F))) ⟨m, fun _ => 0, ρ⟩ (fun r => ∀ c : Dev nD,
      r.2.mem ((c.tc : Thread nD τ).loc main_v8)
        = Chamfer.tail reducesTo_S8x4096_S_d0_1 h_S_ (m ((c.tc : Thread nD τ).loc main_arg2)) (m ((c.tc : Thread nD τ).loc main_arg3)) (rows m c) (cols m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v8 (Pipeline.mem_restRefs_of main_v8 (by decide) (by decide))).trans (tail_after m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.TailValue

namespace Cert.ReferenceIdeal.TailValue

open Cert.ReferenceIdeal Cert.ReferenceIdeal.Gen Cert.ReferenceIdeal.Read
open Idealize.ShloMosaic

/-- The second program's last operations are the same weighted combination, of its own two tables of minima: its last
    six stages and three constants, opened once each, are `Chamfer.tail` opened once; the two tables stay closed. -/
theorem ref_tail {F : FTy → Type} [FloatOps F] (x0 x1 : (⟨S8x4096x128, .f32⟩ : BufTy).Contents (Elt F))
    (x2 x3 : (⟨S8x4096, .f32⟩ : BufTy).Contents (Elt F)) :
    val_main_v23 (F := F) x0 x1 x2 x3
      = Chamfer.tail reducesTo_S8x4096_S_d0_1 h_S_ x2 x3 (val_main_v16 (F := F) x0 x1) (val_main_v17 (F := F) x0 x1) := by
  unfold val_main_v23 val_main_v22 val_main_v19 val_main_v21 val_main_v18 val_main_v20 val_main_cst_5 val_main_cst_6
    val_main_cst_7 Chamfer.tail
  generalize val_main_v16 (F := F) x0 x1 = r
  generalize val_main_v17 (F := F) x0 x1 = c
  rfl

end Cert.ReferenceIdeal.TailValue

end
-- ==== Proof.Spec.lean ====
/-
  Pairwise Euclidean distances between two point sets and their minima, on the extended reals.

  For two arrays `x`, `y` of 8 batches of 4096 points in 128 coordinates, the distance of point `p` of `x` to point `q` of
  `y` in batch `b` is `sqrt (max (|x_p|² + |y_q|² - 2 · ⟨x_p, y_q⟩) 0)`, the three sums taken over the 128 coordinates.
  `rowMin` is the least distance from `x_p` to any point of `y`, `colMin` the least distance from `y_q` to any point of
  `x`. Minima are taken as infima over finite index sets, so their value does not depend on any order or grouping.

  The second half is the same distance written over one 1024-point block of each array, and the accumulation of a
  minimum over the 4 × 4 pairs of blocks of a batch in row-major order: after the pair at position `k` (`k = 4 n + m`),
  the running minimum of row `p` has met exactly the columns `q` with `4 ⌊p/1024⌋ + ⌊q/1024⌋ ≤ k`, and likewise for a column.
-/
import Idealize.ShloMosaic.PureOps.Ideal.Laws
import Idealize.ShloMosaic.Lib.ValueIdx

noncomputable section

open scoped BigOperators

namespace Cert.Chamfer

open Idealize.ShloMosaic Idealize.ShloMosaic.ValueIdx

/-- 8 batches of 4096 points with 128 coordinates. -/
abbrev Pts : Shape := ⟨3, ![8, 4096, 128]⟩
/-- One block: 1024 points with 128 coordinates, under a leading unit axis. -/
abbrev Blk : Shape := ⟨3, ![1, 1024, 128]⟩

/-- The word of +∞ denotes the top of the extended reals. -/
theorem ofBits_posInf : Ideal.ofBits .f32 0x7F800000#32 = (⊤ : EReal) := by simp [Ideal.ofBits, Ideal.ieee]

/-- A fold of `min` from the top element is the infimum over the set. -/
theorem fold_min_top {ι : Type} (s : Finset ι) (f : ι → EReal) : s.fold min (⊤ : EReal) f = s.inf f := rfl

/-- The squared distance formula from the two squared norms and the inner product, clamped at zero, and its root. -/
def distOf (sx sy c : EReal) : EReal :=
  Ideal.sqrt (max ((sx + sy) - Ideal.ofBits .f32 0x40000000#32 * c) (Ideal.ofBits .f32 0x00000000#32))

/-- `|x_p|²` in batch `b`. -/
def sqn (x : FVec Ideal Pts .f32) (b : Fin 8) (p : Fin 4096) : EReal := ∑ k : Fin 128, x (ix3 b p k) * x (ix3 b p k)
/-- `⟨x_p, y_q⟩` in batch `b`. -/
def cross (x y : FVec Ideal Pts .f32) (b : Fin 8) (p q : Fin 4096) : EReal := ∑ k : Fin 128, x (ix3 b p k) * y (ix3 b q k)
/-- The distance from `x_p` to `y_q` in batch `b`. -/
def dist (x y : FVec Ideal Pts .f32) (b : Fin 8) (p q : Fin 4096) : EReal := distOf (sqn x b p) (sqn y b q) (cross x y b p q)
/-- The least distance from `x_p` to a point of `y`. -/
def rowMin (x y : FVec Ideal Pts .f32) (b : Fin 8) (p : Fin 4096) : EReal := Finset.univ.inf fun q : Fin 4096 => dist x y b p q
/-- The least distance from `y_q` to a point of `x`. -/
def colMin (x y : FVec Ideal Pts .f32) (b : Fin 8) (q : Fin 4096) : EReal := Finset.univ.inf fun p : Fin 4096 => dist x y b p q

/-! ## One pair of blocks -/

/-- The distance from row `r` of the block `u` to row `s` of the block `v`. -/
def blkDist (u v : FVec Ideal Blk .f32) (r s : Fin 1024) : EReal :=
  distOf (∑ k : Fin 128, u (ix3 (0 : Fin 1) r k) * u (ix3 (0 : Fin 1) r k)) (∑ k : Fin 128, v (ix3 (0 : Fin 1) s k) * v (ix3 (0 : Fin 1) s k))
    (∑ k : Fin 128, u (ix3 (0 : Fin 1) r k) * v (ix3 (0 : Fin 1) s k))

/-- Point `r` of block `n` among the 4096 points. -/
def at4 (n : Fin 4) (r : Fin 1024) : Fin 4096 := ⟨n.val * 1024 + r.val, by omega⟩

/-! ## Accumulating a minimum over the 4 × 4 pairs of blocks, for any table `d` of values -/

/-- The least entry of row `at4 n r` within column block `m`. -/
def tileRowMin (d : Fin 4096 → Fin 4096 → EReal) (n m : Fin 4) (r : Fin 1024) : EReal := Finset.univ.inf fun s : Fin 1024 => d (at4 n r) (at4 m s)
/-- The least entry of column `at4 m s` within row block `n`. -/
def tileColMin (d : Fin 4096 → Fin 4096 → EReal) (n m : Fin 4) (s : Fin 1024) : EReal := Finset.univ.inf fun r : Fin 1024 => d (at4 n r) (at4 m s)
/-- The least entry of row `p` over the columns met by position `k`. -/
def rowAcc (d : Fin 4096 → Fin 4096 → EReal) (k : ℕ) (p : Fin 4096) : EReal :=
  (Finset.univ.filter fun q : Fin 4096 => (p.val / 1024) * 4 + q.val / 1024 ≤ k).inf (d p)
/-- The least entry of column `q` over the rows met by position `k`. -/
def colAcc (d : Fin 4096 → Fin 4096 → EReal) (k : ℕ) (q : Fin 4096) : EReal :=
  (Finset.univ.filter fun p : Fin 4096 => (p.val / 1024) * 4 + q.val / 1024 ≤ k).inf (fun p => d p q)

end Cert.Chamfer

end
-- ==== Proof.LibMinReduce.lean ====
/-
  A minimum along one axis, read at an index, on the extended reals.

  A reduction by minimum over ONE axis of an array, read at an index `j` of the reduced shape, is the fold of `min`, from the
  value of the start word, over that axis's coordinates `k` of the array at `j` with `k` inserted on the reduced axis. It is
  the twin, for the minimum, of the reading of a single-axis maximum: the reduction is a fold over the set of indices that
  drop to `j`, and that set is the image of the axis's coordinates under the insertion.
-/
import Idealize.ShloMosaic.PureOps.Ideal.Laws
import Idealize.ShloMosaic.PureOps.Reduce

noncomputable section

namespace Cert.LibMinReduce

open Idealize.ShloMosaic

/-- A minimum along one axis, read at a reduced index: the fold of `min` from the start word's value over that axis's
    coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

end Cert.LibMinReduce

end
-- ==== Proof.LibColumn.lean ====
/-
  A column of per-row values used against a matrix.

  A vector of length `a` written as an `[a, 1]` column (a reshape that appends a unit axis) holds, at row `i`, the
  vector's entry `i`; and an `[a, 1]` column broadcast along the second axis to `[a, b]` holds, at `(p, c)`, the
  column's entry of row `p`, whatever the column coordinate `c`. Both are read off the general index lemmas for a
  shape cast (equal row-major positions) and for a broadcast (unit axes read at 0).
-/
import Idealize.ShloMosaic.Lib.Pipeline.Value
import Idealize.ShloMosaic.Lib.ValueIdx

noncomputable section

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.LibDotTransposed.lean ====
/-
  A matrix product against a transposed right operand, read at an index, on the extended reals.

  For dimension numbers that contract the second axis of BOTH operands — an [M, K] array against a [P, K] array, the
  product of the first with the transpose of the second — the product into a zero accumulator, read at row `p` and
  column `q`, is `Σ k, l (p, k) · r (q, k)`: the dot product of row `p` of the left operand with row `q` of the right
  one. The contraction's index set has one axis; the sum is re-indexed through that axis's coordinate. The two facts
  about the free axes (the left index keeps the row, the right index keeps the output's column as its row) are taken as
  hypotheses, since for given dimension numbers they hold by computation.
-/
import Idealize.ShloMosaic.PureOps.Ideal.Laws
import Idealize.ShloMosaic.Lib.ValueIdx

noncomputable section

open scoped BigOperators

namespace Cert.LibDotTransposed

open Idealize.ShloMosaic Idealize.ShloMosaic.ValueIdx

/-- The product with the transposed right operand, into the zero accumulator, at (p, q): the sum over the contraction
    coordinate of the left operand at (p, k) times the right operand at (q, k). -/
theorem matmul_zero_apply {M K P : ℕ} {φ₁ φ₂ : FTy}
    (D : DotDims ⟨2, ![M, K]⟩ ⟨2, ![P, K]⟩ ⟨2, ![M, P]⟩)
    (hlc : D.lhsContracting = [1]) (hrc : D.rhsContracting = [1])
    (hl0 : ∀ (j : (⟨2, ![M, P]⟩ : Shape).Idx) (c : D.contr.Idx), (D.lhsIdx j c 0).val = (j 0).val)
    (hr0 : ∀ (j : (⟨2, ![M, P]⟩ : Shape).Idx) (c : D.contr.Idx), (D.rhsIdx j c 0).val = (j 1).val)
    (hrank : D.contr.rank = 1) (hsize : D.contr.size ⟨0, by omega⟩ = K)
    (prec : Option ContractPrecision)
    (l : FVec Ideal ⟨2, ![M, K]⟩ φ₁) (r : FVec Ideal ⟨2, ![P, K]⟩ φ₂) (p : Fin M) (q : Fin P) :
    FloatOps.matmul D prec l r (constant ⟨2, ![M, P]⟩ .f32 0x00000000#32) (ix2 p q)
      = ∑ k : Fin K, l (ix2 p k) * r (ix2 q k) := by
  rw [Ideal.matmul_constant_zero_apply, ← Equiv.sum_comp (contrEquiv1 D K hrank hsize).symm]
  refine Finset.sum_congr rfl fun k _ => ?_
  have hk := contrEquiv1_symm_val D K hrank hsize k
  have el : D.lhsIdx (ix2 p q) ((contrEquiv1 D K hrank hsize).symm k) = ix2 p k := funext fun a => Fin.ext (by
    match a with
    | ⟨0, _⟩ => exact hl0 _ _
    | ⟨1, _⟩ => exact (D.lhsIdx_val_of_single hlc _ _).trans hk)
  have er : D.rhsIdx (ix2 p q) ((contrEquiv1 D K hrank hsize).symm k) = ix2 q k := funext fun a => Fin.ext (by
    match a with
    | ⟨0, _⟩ => exact hr0 _ _
    | ⟨1, _⟩ => exact (D.rhsIdx_val_of_single hrc _ _).trans hk)
  rw [el, er]

end Cert.LibDotTransposed

end
-- ==== Proof.TilePayload.lean ====
/-
  The arithmetic of one pair of blocks, read at an index, on the extended reals.

  For two blocks `u`, `v` of 1024 points in 128 coordinates, the 1024 × 1024 table of values built from the two
  columns of squared norms, the matrix of inner products, the clamp at zero and the square root is, at `(r, s)`, the
  distance `blkDist u v r s` of row `r` of `u` to row `s` of `v`. Its minimum along the second axis, written as a row, holds
  at `r` the infimum over `s`; its minimum along the first axis holds at `s` the infimum over `r`. The remaining values
  are pointwise: a minimum of two rows, a row under an added unit axis, and the row of the top element.
-/
import proofs.«140551_j84189948936347_2_alg».proof.Proof.Gen.KernelIdeal.Skeleton
import proofs.«140551_j84189948936347_2_alg».proof.Proof.Spec
import proofs.«140551_j84189948936347_2_alg».proof.Proof.LibMinReduce
import proofs.«140551_j84189948936347_2_alg».proof.Proof.LibColumn
import proofs.«140551_j84189948936347_2_alg».proof.Proof.LibDotTransposed
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Reduce

noncomputable section

open scoped BigOperators

namespace Cert.KernelIdeal.TileValue

open Cert.KernelIdeal Cert.KernelIdeal.Gen Cert.Chamfer Idealize.ShloMosaic Idealize.ShloMosaic.ValueIdx

/-! ## The pointwise values -/

/-- The minimum of the loaded row and the new row, under a cast to the same shape. -/
theorem pay1_apply (a : FVec Ideal S1x1024 .f32) (w : Vec Ideal S1x1024 .f32) (r : Fin 1024) :
    k0_pay1 (F := Ideal) a w (ix2 (0 : Fin 1) r) = min (w (ix2 (0 : Fin 1) r)) (a (ix2 (0 : Fin 1) r)) :=
  congrFun (shapeCast_self (minimumf (F := Ideal) w a) _) (ix2 (0 : Fin 1) r)

/-- The same for the second running row. -/
theorem pay2_apply (a : FVec Ideal S1x1024 .f32) (w : Vec Ideal S1x1024 .f32) (r : Fin 1024) :
    k0_pay2 (F := Ideal) a w (ix2 (0 : Fin 1) r) = min (w (ix2 (0 : Fin 1) r)) (a (ix2 (0 : Fin 1) r)) :=
  congrFun (shapeCast_self (minimumf (F := Ideal) w a) _) (ix2 (0 : Fin 1) r)

/-- A row under an added leading unit axis keeps its entries. -/
theorem pay3_apply (w : Vec Ideal S1x4096 .f32) (c : Fin 4096) :
    k0_pay3 (F := Ideal) w (ix3 (0 : Fin 1) (0 : Fin 1) c) = w (ix2 (0 : Fin 1) c) :=
  shapeCast_ab_1ab_apply w _ (0 : Fin 1) (0 : Fin 1) c

/-- The same for the second row. -/
theorem pay4_apply (w : Vec Ideal S1x4096 .f32) (c : Fin 4096) :
    k0_pay4 (F := Ideal) w (ix3 (0 : Fin 1) (0 : Fin 1) c) = w (ix2 (0 : Fin 1) c) :=
  shapeCast_ab_1ab_apply w _ (0 : Fin 1) (0 : Fin 1) c

/-- The row that starts a running minimum holds the top element everywhere. -/
theorem pay5_apply (c : Fin 4096) : k0_pay5 (F := Ideal) (ix2 (0 : Fin 1) c) = (⊤ : EReal) :=
  (congrFun (shapeCast_self (broadcast S1x4096 (Scalar.ofBits (F := Ideal) .f32 0x7F800000#32)) _) (ix2 (0 : Fin 1) c)).trans
    ofBits_posInf

/-- The same for the second row. -/
theorem pay6_apply (c : Fin 4096) : k0_pay6 (F := Ideal) (ix2 (0 : Fin 1) c) = (⊤ : EReal) :=
  (congrFun (shapeCast_self (broadcast S1x4096 (Scalar.ofBits (F := Ideal) .f32 0x7F800000#32)) _) (ix2 (0 : Fin 1) c)).trans
    ofBits_posInf

/-! ## The pieces of the table of distances, over any two arrays of 1024 rows of 128 coordinates -/

/-- A row index `r` with the coordinate `k` put back on the second axis is `(r, k)`. -/
theorem lift_row {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- A column index `s` with the coordinate `k` put back on the first axis is `(k, s)`. -/
theorem lift_col {m n : ℕ} (h : (⟨2, ![m, n]⟩ : Shape).Reduces [0] (⟨1, ![n]⟩ : Shape)) (s : Fin n)
    (k : Fin ((⟨2, ![m, n]⟩ : Shape).size 0)) : h.lift (ix1 s) k = ix2 (⟨k.val, k.isLt⟩ : Fin m) s := by
  funext c; apply Fin.ext
  fin_cases c <;> rfl

/-- The sum of squares along the second axis, from the zero word, at row `r`: the squared norm of that row. -/
theorem sqnorm_apply (X : FVec Ideal S1024x128 .f32) (h : S1024x128.Reduces [1] S1024) (hφ : FKind.Formats .f32)
    (hacc : (0x00000000#32 : BitVec 32) = FKind.add.neutral .f32 hφ) (r : Fin 1024) :
    multiReduction .add [1] S1024 (mulf X X) 0x00000000#32 h hφ hacc (ix1 r) = ∑ k : Fin 128, X (ix2 r k) * X (ix2 r k) := by
  refine (Ideal.multiReduction_add_single (mulf X X) _ h hφ hacc (ix1 r)).trans ?_
  refine Finset.sum_congr rfl fun k _ => ?_
  exact congrArg (mulf X X) (lift_row h r k)

/-- The squared norms written as a column and repeated along the rows: at `(r, s)` the squared norm of row `r`. -/
theorem normCol_apply (X : FVec Ideal S1024x128 .f32) (h : S1024x128.Reduces [1] S1024) (hφ : FKind.Formats .f32)
    (hacc : (0x00000000#32 : BitVec 32) = FKind.add.neutral .f32 hφ) (hc : S1024.ShapeCasts S1024x1)
    (hb : S1024x1.Broadcasts S1024x1024) (r s : Fin 1024) :
    broadcastTo S1024x1024 (shapeCast S1024x1 (multiReduction .add [1] S1024 (mulf X X) 0x00000000#32 h hφ hacc) hc) hb (ix2 r s)
      = ∑ k : Fin 128, X (ix2 r k) * X (ix2 r k) :=
  (Cert.LibColumn.broadcastTo_a1_ab_apply _ hb r s).trans
    ((Cert.LibColumn.shapeCast_a_a1_apply _ hc r (0 : Fin 1)).trans (sqnorm_apply X h hφ hacc r))

/-- The squared norms written as a column, turned into a row and repeated down the columns: at `(r, s)` the squared
    norm of row `s`. -/
theorem normRow_apply (Y : FVec Ideal S1024x128 .f32) (h : S1024x128.Reduces [1] S1024) (hφ : FKind.Formats .f32)
    (hacc : (0x00000000#32 : BitVec 32) = FKind.add.neutral .f32 hφ) (hc : S1024.ShapeCasts S1024x1)
    (ht : S1024x1.Transposes [1, 0] S1x1024) (hb : S1x1024.Broadcasts S1024x1024) (r s : Fin 1024) :
    broadcastTo S1024x1024
        (transpose S1x1024 [1, 0] (shapeCast S1024x1 (multiReduction .add [1] S1024 (mulf Y Y) 0x00000000#32 h hφ hacc) hc) ht)
        hb (ix2 r s)
      = ∑ k : Fin 128, Y (ix2 s k) * Y (ix2 s k) :=
  (broadcastTo_1b_ab_apply _ hb r s).trans
    ((transpose_ix2_apply _ ht (0 : Fin 1) s).trans
      ((Cert.LibColumn.shapeCast_a_a1_apply _ hc s (0 : Fin 1)).trans (sqnorm_apply Y h hφ hacc s)))

/-- The product of the first array with the transpose of the second, into the zero accumulator, at `(r, s)`: the
    inner product of row `r` of the first with row `s` of the second (a change of format is the identity). -/
theorem inner_apply (X Y : FVec Ideal S1024x128 .f32) (hlt : FTy.bits .bf16 < FTy.bits .f32) (r s : Fin 1024) :
    matmul dot_S1024x128_S1024x128_S1024x1024_1_1_0_0_n_n none (truncf .bf16 X hlt) (truncf .bf16 Y hlt)
        (constant S1024x1024 .f32 0x00000000#32) (ix2 r s)
      = ∑ k : Fin 128, X (ix2 r k) * Y (ix2 s k) :=
  Cert.LibDotTransposed.matmul_zero_apply (M := 1024) (K := 128) (P := 1024)
    dot_S1024x128_S1024x128_S1024x1024_1_1_0_0_n_n rfl rfl (fun _ _ => rfl) (fun _ _ => rfl) rfl rfl none
    (truncf .bf16 X hlt) (truncf .bf16 Y hlt) r s

/-! ## The table of distances -/

/-- The table at `(r, s)` is the distance from row `r` of the first block to row `s` of the second: the two broadcast
    norms, the inner product, the clamp and the root are read entry by entry, and the blocks through the cast that drops
    their unit axis. -/
theorem pay7_apply (u v : Vec Ideal S1x1024x128 .f32) (r s : Fin 1024) :
    k0_pay7 (F := Ideal) u v (ix2 r s) = blkDist u v r s := by
  have hu : ∀ (r : Fin 1024) (k : Fin 128),
      shapeCast S1024x128 u shapeCasts_S1x1024x128_S1024x128 (ix2 r k) = u (ix3 (0 : Fin 1) r k) :=
    fun r k => shapeCast_1ab_ab_apply u _ r k
  have hv : ∀ (r : Fin 1024) (k : Fin 128),
      shapeCast S1024x128 v shapeCasts_S1x1024x128_S1024x128 (ix2 r k) = v (ix3 (0 : Fin 1) r k) :=
    fun r k => shapeCast_1ab_ab_apply v _ r k
  unfold k0_pay7 blkDist distOf
  refine congrArg Ideal.sqrt (congrArg₂ max (congrArg₂ (· - ·) (congrArg₂ (· + ·) ?_ ?_) (congrArg (_ * ·) ?_)) rfl)
  · refine (normCol_apply _ _ _ _ _ _ r s).trans (Finset.sum_congr rfl fun k _ => ?_)
    rw [hu]
  · refine (normRow_apply _ _ _ _ _ _ _ r s).trans (Finset.sum_congr rfl fun k _ => ?_)
    rw [hv]
  · refine (inner_apply _ _ _ r s).trans (Finset.sum_congr rfl fun k _ => ?_)
    rw [hu, hv]

/-! ## The minima of a table along each axis -/

/-- The minimum along the second axis, from the word of the top element, at row `r`: the infimum of that row. -/
theorem rowMin_apply (T : FVec Ideal S1024x1024 .f32) (h : S1024x1024.Reduces [1] S1024) (hφ : FKind.Formats .f32)
    (hacc : (0x7F800000#32 : BitVec 32) = FKind.minimumf.neutral .f32 hφ) (r : Fin 1024) :
    multiReduction .minimumf [1] S1024 T 0x7F800000#32 h hφ hacc (ix1 r) = Finset.univ.inf fun s : Fin 1024 => T (ix2 r s) := by
  refine (Cert.LibMinReduce.multiReduction_minimumf_single T _ h hφ hacc (ix1 r)).trans ?_
  have hf : (T ∘ h.lift (ix1 r)) = fun k : Fin 1024 => T (ix2 r k) := funext fun k => congrArg T (lift_row h r k)
  have h0 : (FloatOps.ofBits .f32 0x7F800000#32 : Ideal .f32) = (⊤ : EReal) := ofBits_posInf
  exact (congrArg₂ (fun a f => Finset.fold min a f (Finset.univ : Finset (Fin 1024))) h0 hf).trans (fold_min_top _ _)

/-- The minimum along the first axis, from the word of the top element, at column `s`: the infimum of that column. -/
theorem colMin_apply (T : FVec Ideal S1024x1024 .f32) (h : S1024x1024.Reduces [0] S1024) (hφ : FKind.Formats .f32)
    (hacc : (0x7F800000#32 : BitVec 32) = FKind.minimumf.neutral .f32 hφ) (s : Fin 1024) :
    multiReduction .minimumf [0] S1024 T 0x7F800000#32 h hφ hacc (ix1 s) = Finset.univ.inf fun r : Fin 1024 => T (ix2 r s) := by
  refine (Cert.LibMinReduce.multiReduction_minimumf_single T _ h hφ hacc (ix1 s)).trans ?_
  have hf : (T ∘ h.lift (ix1 s)) = fun k : Fin 1024 => T (ix2 k s) := funext fun k => congrArg T (lift_col h s k)
  have h0 : (FloatOps.ofBits .f32 0x7F800000#32 : Ideal .f32) = (⊤ : EReal) := ofBits_posInf
  exact (congrArg₂ (fun a f => Finset.fold min a f (Finset.univ : Finset (Fin 1024))) h0 hf).trans (fold_min_top _ _)

/-- The row minima of the table of distances, written as a column and turned into a row: at `r` the least distance
    from row `r` of the first block to a row of the second. -/
theorem pay8_apply (u v : Vec Ideal S1x1024x128 .f32) (r : Fin 1024) :
    k0_pay8 (F := Ideal) u v (ix2 (0 : Fin 1) r) = Finset.univ.inf fun s : Fin 1024 => blkDist u v r s := by
  unfold k0_pay8
  refine (transpose_ix2_apply _ _ (0 : Fin 1) r).trans ?_
  refine (Cert.LibColumn.shapeCast_a_a1_apply _ _ r (0 : Fin 1)).trans ?_
  refine (rowMin_apply _ _ _ _ r).trans ?_
  exact Finset.inf_congr rfl fun s _ => pay7_apply u v r s

/-- The column minima of the table of distances, written as a row: at `s` the least distance from row `s` of the
    second block to a row of the first. -/
theorem pay9_apply (u v : Vec Ideal S1x1024x128 .f32) (s : Fin 1024) :
    k0_pay9 (F := Ideal) u v (ix2 (0 : Fin 1) s) = Finset.univ.inf fun r : Fin 1024 => blkDist u v r s := by
  unfold k0_pay9
  refine (shapeCast_a_1a_apply _ _ (0 : Fin 1) s).trans ?_
  refine (colMin_apply _ _ _ _ s).trans ?_
  exact Finset.inf_congr rfl fun r _ => pay7_apply u v r s

end Cert.KernelIdeal.TileValue

end
-- ==== Proof.Pieces.lean ====
/-
  What one grid point leaves in the two running rows and in the two outputs, read at an index on the extended reals.

  A grid point (b, n, m) meets block n of the first point set and block m of the second. In the first running row it
  replaces the 1024 entries of block n by their minimum with the row minima of this pair of blocks and keeps every other
  entry; in the second it does the same to block m with the column minima. At the first point of a batch both rows are
  first filled with the top element; at the last point of a batch the two rows are copied to the outputs.
-/
import proofs.«140551_j84189948936347_2_alg».proof.Proof.Gen.KernelIdeal.Frame
import proofs.«140551_j84189948936347_2_alg».proof.Proof.TilePayload
import Idealize.ShloMosaic.Lib.Pipeline.Value
import Idealize.ShloMosaic.Lib.WritesUnit
import Idealize.ShloMosaic.Lib.WholeRead
import Idealize.ShloMosaic.Lib.ValueIdx
import Idealize.ShloMosaic.Lib.Tactic

noncomputable section

open Idealize.ShloMosaic Idealize.ShloMosaic.TcCoe Idealize.SL.Sem Idealize.ShloMosaic.Tactic Idealize.ShloMosaic.ValueIdx

namespace Cert.KernelIdeal.PieceValue

open Cert.KernelIdeal Cert.KernelIdeal.Gen

theorem hz3 : (![0, 0, 0] : Fin 3 → Nat) = fun _ => 0 := funext fun a => by fin_cases a <;> rfl
theorem hz2 : (![0, 0] : Fin 2 → Nat) = fun _ => 0 := funext fun a => by fin_cases a <;> rfl

/-! ## The first running row (row minima), and the first output -/

/-- First point of a batch, inside block n: the row minimum of this pair of blocks (its minimum with the top element). -/
theorem sA0_in (c : Dev nD) (i : grid0.Coords) (arg3 : Memref sig .tc .vmem S1x1024x128 .f32) (harg3 : arg3.IsWhole) (arg4 : Memref sig .tc .vmem S1x1024x128 .f32) (harg4 : arg4.IsWhole) (arg5 : Memref sig .tc .vmem S1x1x4096 .f32) (harg5 : arg5.IsWhole) (arg6 : Memref sig .tc .vmem S1x1x4096 .f32) (harg6 : arg6.IsWhole) (arg7 : Memref sig .tc .vmem S1x4096 .f32) (harg7 : arg7.IsWhole) (arg8 : Memref sig .tc .vmem S1x4096 .f32) (harg8 : arg8.IsWhole) (hc0 : cond0_0 i) (hc1 : ¬cond0_1 i) (x0 x1 : Vec Ideal S1x1024x128 .f32)
    (cc : Fin 4096) (r : Fin 1024) (hcr : cc.val = 1024 * (i 1).val + r.val) :
    sout0_A_0 (F := Ideal) c i arg3 harg3 arg4 harg4 arg5 harg5 arg6 harg6 arg7 harg7 arg8 harg8 hc0 hc1 x0 x1 (ix2 (0 : Fin 1) cc)
      = k0_pay8 (F := Ideal) x0 x1 (ix2 (0 : Fin 1) r) := by
  unfold sout0_A_0
  unfold kernelRun0_A
  dsimp only
  sl_unfold_run_names
  refine (View.read_writes_cons_unit_of_mem VS0_0 VS0_0.junk _ _ _ (ix2 (0 : Fin 1) cc) (ix2 (0 : Fin 1) r) (k0_off1_eq i) ?_).trans ?_
  · intro a
    match a with
    | ⟨0, _⟩ => rfl
    | ⟨1, _⟩ => exact hcr
  · refine (TileValue.pay1_apply _ _ r).trans ?_
    simp only [View.readAt_eq_ld, harg3.read_unread, harg4.read_unread, View.ld_unit_zero (S := S1x1024x128) hz3]
    refine (congrArg (fun z => min z _) ?_).trans (min_top_left _)
    refine (View.read_writes_cons_unit_of_mem arg7.view arg7.view.junk _ _ [] _ (ix2 (0 : Fin 1) cc) rfl (fun a => ?_)).trans
      (TileValue.pay5_apply cc)
    show k0_off1 i a + 1 * ((ix2 (0 : Fin 1) r) a).val = (![0, 0] : Fin 2 → Nat) a + ((ix2 (0 : Fin 1) cc) a).val
    rw [k0_off1_eq i]
    match a with
    | ⟨0, _⟩ => rfl
    | ⟨1, _⟩ => show 1024 * (i 1).val + 1 * r.val = 0 + cc.val; omega

/-- First point of a batch, outside block n: the top element. -/
theorem sA0_out (c : Dev nD) (i : grid0.Coords) (arg3 : Memref sig .tc .vmem S1x1024x128 .f32) (harg3 : arg3.IsWhole) (arg4 : Memref sig .tc .vmem S1x1024x128 .f32) (harg4 : arg4.IsWhole) (arg5 : Memref sig .tc .vmem S1x1x4096 .f32) (harg5 : arg5.IsWhole) (arg6 : Memref sig .tc .vmem S1x1x4096 .f32) (harg6 : arg6.IsWhole) (arg7 : Memref sig .tc .vmem S1x4096 .f32) (harg7 : arg7.IsWhole) (arg8 : Memref sig .tc .vmem S1x4096 .f32) (harg8 : arg8.IsWhole) (hc0 : cond0_0 i) (hc1 : ¬cond0_1 i) (x0 x1 : Vec Ideal S1x1024x128 .f32)
    (cc : Fin 4096) (hcr : cc.val < 1024 * (i 1).val ∨ 1024 * (i 1).val + 1024 ≤ cc.val) :
    sout0_A_0 (F := Ideal) c i arg3 harg3 arg4 harg4 arg5 harg5 arg6 harg6 arg7 harg7 arg8 harg8 hc0 hc1 x0 x1 (ix2 (0 : Fin 1) cc) = (⊤ : EReal) := by
  unfold sout0_A_0
  unfold kernelRun0_A
  dsimp only
  sl_unfold_run_names
  refine (View.read_writes_cons_unit_of_not_mem VS0_0 VS0_0.junk _ _ _ (ix2 (0 : Fin 1) cc) (k0_off1_eq i) (1 : Fin 2) ?_).trans ?_
  · exact hcr
  · refine (View.read_writes_cons_unit_of_mem VS0_0 VS0_0.junk _ _ [] (ix2 (0 : Fin 1) cc) (ix2 (0 : Fin 1) cc) rfl (fun a => ?_)).trans
      (TileValue.pay5_apply cc)
    match a with
    | ⟨0, _⟩ => exact (Nat.zero_add _).symm
    | ⟨1, _⟩ => exact (Nat.zero_add _).symm

/-- A later point, inside block n: the minimum of what the row held and the row minimum of this pair of blocks. -/
theorem sB0_in (c : Dev nD) (i : grid0.Coords) (arg3 : Memref sig .tc .vmem S1x1024x128 .f32) (harg3 : arg3.IsWhole) (arg4 : Memref sig .tc .vmem S1x1024x128 .f32) (harg4 : arg4.IsWhole) (arg5 : Memref sig .tc .vmem S1x1x4096 .f32) (harg5 : arg5.IsWhole) (arg6 : Memref sig .tc .vmem S1x1x4096 .f32) (harg6 : arg6.IsWhole) (arg7 : Memref sig .tc .vmem S1x4096 .f32) (harg7 : arg7.IsWhole) (arg8 : Memref sig .tc .vmem S1x4096 .f32) (harg8 : arg8.IsWhole) (hc0 : ¬cond0_0 i) (hc1 : ¬cond0_1 i) (x0 x1 : Vec Ideal S1x1024x128 .f32) (xs0 xs1 : Vec Ideal S1x4096 .f32)
    (cc : Fin 4096) (r : Fin 1024) (hcr : cc.val = 1024 * (i 1).val + r.val) :
    sout0_B_0 (F := Ideal) c i arg3 harg3 arg4 harg4 arg5 harg5 arg6 harg6 arg7 harg7 arg8 harg8 hc0 hc1 x0 x1 xs0 xs1 (ix2 (0 : Fin 1) cc)
      = min (xs0 (ix2 (0 : Fin 1) cc)) (k0_pay8 (F := Ideal) x0 x1 (ix2 (0 : Fin 1) r)) := by
  unfold sout0_B_0
  unfold kernelRun0_B
  dsimp only
  sl_unfold_run_names
  refine (View.read_writes_cons_unit_of_mem arg7.view (harg7.unread xs0) _ _ [] (ix2 (0 : Fin 1) cc) (ix2 (0 : Fin 1) r) (k0_off1_eq i) ?_).trans ?_
  · intro a
    match a with
    | ⟨0, _⟩ => rfl
    | ⟨1, _⟩ => exact hcr
  · refine (TileValue.pay1_apply _ _ r).trans ?_
    simp only [View.readAt_eq_ld, harg3.read_unread, harg4.read_unread, harg7.read_unread, View.ld_unit_zero (S := S1x1024x128) hz3]
    refine congrArg (fun z => min z _) ?_
    show xs0 _ = xs0 _
    refine congrArg xs0 (funext fun a => Fin.ext ?_)
    show k0_off1 i a + 1 * ((ix2 (0 : Fin 1) r) a).val = ((ix2 (0 : Fin 1) cc) a).val
    rw [k0_off1_eq i]
    match a with
    | ⟨0, _⟩ => rfl
    | ⟨1, _⟩ => show 1024 * (i 1).val + 1 * r.val = cc.val; omega

/-- A later point, outside block n: what the row held. -/
theorem sB0_out (c : Dev nD) (i : grid0.Coords) (arg3 : Memref sig .tc .vmem S1x1024x128 .f32) (harg3 : arg3.IsWhole) (arg4 : Memref sig .tc .vmem S1x1024x128 .f32) (harg4 : arg4.IsWhole) (arg5 : Memref sig .tc .vmem S1x1x4096 .f32) (harg5 : arg5.IsWhole) (arg6 : Memref sig .tc .vmem S1x1x4096 .f32) (harg6 : arg6.IsWhole) (arg7 : Memref sig .tc .vmem S1x4096 .f32) (harg7 : arg7.IsWhole) (arg8 : Memref sig .tc .vmem S1x4096 .f32) (harg8 : arg8.IsWhole) (hc0 : ¬cond0_0 i) (hc1 : ¬cond0_1 i) (x0 x1 : Vec Ideal S1x1024x128 .f32) (xs0 xs1 : Vec Ideal S1x4096 .f32)
    (cc : Fin 4096) (hcr : cc.val < 1024 * (i 1).val ∨ 1024 * (i 1).val + 1024 ≤ cc.val) :
    sout0_B_0 (F := Ideal) c i arg3 harg3 arg4 harg4 arg5 harg5 arg6 harg6 arg7 harg7 arg8 harg8 hc0 hc1 x0 x1 xs0 xs1 (ix2 (0 : Fin 1) cc) = xs0 (ix2 (0 : Fin 1) cc) := by
  unfold sout0_B_0
  unfold kernelRun0_B
  dsimp only
  sl_unfold_run_names
  refine (View.read_writes_cons_unit_of_not_mem arg7.view (harg7.unread xs0) _ _ [] (ix2 (0 : Fin 1) cc) (k0_off1_eq i) (1 : Fin 2) ?_).trans ?_
  · exact hcr
  · rw [View.writes_nil, harg7.read_unread]

/-- The last point of a batch updates the row as any later point does: inside block n, -/
theorem sC0_in (c : Dev nD) (i : grid0.Coords) (arg3 : Memref sig .tc .vmem S1x1024x128 .f32) (harg3 : arg3.IsWhole) (arg4 : Memref sig .tc .vmem S1x1024x128 .f32) (harg4 : arg4.IsWhole) (arg5 : Memref sig .tc .vmem S1x1x4096 .f32) (harg5 : arg5.IsWhole) (arg6 : Memref sig .tc .vmem S1x1x4096 .f32) (harg6 : arg6.IsWhole) (arg7 : Memref sig .tc .vmem S1x4096 .f32) (harg7 : arg7.IsWhole) (arg8 : Memref sig .tc .vmem S1x4096 .f32) (harg8 : arg8.IsWhole) (hc0 : ¬cond0_0 i) (hc1 : cond0_1 i) (x0 x1 : Vec Ideal S1x1024x128 .f32) (xs0 xs1 : Vec Ideal S1x4096 .f32)
    (cc : Fin 4096) (r : Fin 1024) (hcr : cc.val = 1024 * (i 1).val + r.val) :
    sout0_C_0 (F := Ideal) c i arg3 harg3 arg4 harg4 arg5 harg5 arg6 harg6 arg7 harg7 arg8 harg8 hc0 hc1 x0 x1 xs0 xs1 (ix2 (0 : Fin 1) cc)
      = min (xs0 (ix2 (0 : Fin 1) cc)) (k0_pay8 (F := Ideal) x0 x1 (ix2 (0 : Fin 1) r)) := by
  unfold sout0_C_0
  unfold kernelRun0_C
  dsimp only
  sl_unfold_run_names
  refine (View.read_writes_cons_unit_of_mem arg7.view (harg7.unread xs0) _ _ [] (ix2 (0 : Fin 1) cc) (ix2 (0 : Fin 1) r) (k0_off1_eq i) ?_).trans ?_
  · intro a
    match a with
    | ⟨0, _⟩ => rfl
    | ⟨1, _⟩ => exact hcr
  · refine (TileValue.pay1_apply _ _ r).trans ?_
    simp only [View.readAt_eq_ld, harg3.read_unread, harg4.read_unread, harg7.read_unread, View.ld_unit_zero (S := S1x1024x128) hz3]
    refine congrArg (fun z => min z _) ?_
    show xs0 _ = xs0 _
    refine congrArg xs0 (funext fun a => Fin.ext ?_)
    show k0_off1 i a + 1 * ((ix2 (0 : Fin 1) r) a).val = ((ix2 (0 : Fin 1) cc) a).val
    rw [k0_off1_eq i]
    match a with
    | ⟨0, _⟩ => rfl
    | ⟨1, _⟩ => show 1024 * (i 1).val + 1 * r.val = cc.val; omega

/-- and outside it. -/
theorem sC0_out (c : Dev nD) (i : grid0.Coords) (arg3 : Memref sig .tc .vmem S1x1024x128 .f32) (harg3 : arg3.IsWhole) (arg4 : Memref sig .tc .vmem S1x1024x128 .f32) (harg4 : arg4.IsWhole) (arg5 : Memref sig .tc .vmem S1x1x4096 .f32) (harg5 : arg5.IsWhole) (arg6 : Memref sig .tc .vmem S1x1x4096 .f32) (harg6 : arg6.IsWhole) (arg7 : Memref sig .tc .vmem S1x4096 .f32) (harg7 : arg7.IsWhole) (arg8 : Memref sig .tc .vmem S1x4096 .f32) (harg8 : arg8.IsWhole) (hc0 : ¬cond0_0 i) (hc1 : cond0_1 i) (x0 x1 : Vec Ideal S1x1024x128 .f32) (xs0 xs1 : Vec Ideal S1x4096 .f32)
    (cc : Fin 4096) (hcr : cc.val < 1024 * (i 1).val ∨ 1024 * (i 1).val + 1024 ≤ cc.val) :
    sout0_C_0 (F := Ideal) c i arg3 harg3 arg4 harg4 arg5 harg5 arg6 harg6 arg7 harg7 arg8 harg8 hc0 hc1 x0 x1 xs0 xs1 (ix2 (0 : Fin 1) cc) = xs0 (ix2 (0 : Fin 1) cc) := by
  unfold sout0_C_0
  unfold kernelRun0_C
  dsimp only
  sl_unfold_run_names
  refine (View.read_writes_cons_unit_of_not_mem arg7.view (harg7.unread xs0) _ _ [] (ix2 (0 : Fin 1) cc) (k0_off1_eq i) (1 : Fin 2) ?_).trans ?_
  · exact hcr
  · rw [View.writes_nil, harg7.read_unread]

/-- At the last point of a batch the output receives the row as that point leaves it. -/
theorem oC2 (c : Dev nD) (i : grid0.Coords) (arg3 : Memref sig .tc .vmem S1x1024x128 .f32) (harg3 : arg3.IsWhole) (arg4 : Memref sig .tc .vmem S1x1024x128 .f32) (harg4 : arg4.IsWhole) (arg5 : Memref sig .tc .vmem S1x1x4096 .f32) (harg5 : arg5.IsWhole) (arg6 : Memref sig .tc .vmem S1x1x4096 .f32) (harg6 : arg6.IsWhole) (arg7 : Memref sig .tc .vmem S1x4096 .f32) (harg7 : arg7.IsWhole) (arg8 : Memref sig .tc .vmem S1x4096 .f32) (harg8 : arg8.IsWhole) (hc0 : ¬cond0_0 i) (hc1 : cond0_1 i) (x0 x1 : Vec Ideal S1x1024x128 .f32) (xs0 xs1 : Vec Ideal S1x4096 .f32)
    (cc : Fin 4096) :
    out0_C_2 (F := Ideal) c i arg3 harg3 arg4 harg4 arg5 harg5 arg6 harg6 arg7 harg7 arg8 harg8 hc0 hc1 x0 x1 xs0 xs1 (ix3 (0 : Fin 1) (0 : Fin 1) cc)
      = sout0_C_0 (F := Ideal) c i arg3 harg3 arg4 harg4 arg5 harg5 arg6 harg6 arg7 harg7 arg8 harg8 hc0 hc1 x0 x1 xs0 xs1 (ix2 (0 : Fin 1) cc) := by
  unfold out0_C_2 sout0_C_0
  unfold kernelRun0_C
  dsimp only
  sl_unfold_run_names
  refine (View.read_writes_cons_unit_of_mem VO0_2 VO0_2.junk _ _ [] (ix3 (0 : Fin 1) (0 : Fin 1) cc) (ix3 (0 : Fin 1) (0 : Fin 1) cc) rfl (fun a => ?_)).trans ?_
  · match a with
    | ⟨0, _⟩ => exact (Nat.zero_add _).symm
    | ⟨1, _⟩ => exact (Nat.zero_add _).symm
    | ⟨2, _⟩ => exact (Nat.zero_add _).symm
  · refine (TileValue.pay3_apply _ cc).trans ?_
    exact congrFun (View.ld_unit_zero (S := S1x4096) hz2 inb_S1x4096_S1x4096_0_0 _) (ix2 (0 : Fin 1) cc)

/-! ## The second running row (column minima), and the second output -/

/-- First point of a batch, inside block m: the column minimum of this pair of blocks (its minimum with the top element). -/
theorem sA1_in (c : Dev nD) (i : grid0.Coords) (arg3 : Memref sig .tc .vmem S1x1024x128 .f32) (harg3 : arg3.IsWhole) (arg4 : Memref sig .tc .vmem S1x1024x128 .f32) (harg4 : arg4.IsWhole) (arg5 : Memref sig .tc .vmem S1x1x4096 .f32) (harg5 : arg5.IsWhole) (arg6 : Memref sig .tc .vmem S1x1x4096 .f32) (harg6 : arg6.IsWhole) (arg7 : Memref sig .tc .vmem S1x4096 .f32) (harg7 : arg7.IsWhole) (arg8 : Memref sig .tc .vmem S1x4096 .f32) (harg8 : arg8.IsWhole) (hc0 : cond0_0 i) (hc1 : ¬cond0_1 i) (x0 x1 : Vec Ideal S1x1024x128 .f32)
    (cc : Fin 4096) (r : Fin 1024) (hcr : cc.val = 1024 * (i 2).val + r.val) :
    sout0_A_1 (F := Ideal) c i arg3 harg3 arg4 harg4 arg5 harg5 arg6 harg6 arg7 harg7 arg8 harg8 hc0 hc1 x0 x1 (ix2 (0 : Fin 1) cc)
      = k0_pay9 (F := Ideal) x0 x1 (ix2 (0 : Fin 1) r) := by
  unfold sout0_A_1
  unfold kernelRun0_A
  dsimp only
  sl_unfold_run_names
  refine (View.read_writes_cons_unit_of_mem VS0_1 VS0_1.junk _ _ _ (ix2 (0 : Fin 1) cc) (ix2 (0 : Fin 1) r) (k0_off2_eq i) ?_).trans ?_
  · intro a
    match a with
    | ⟨0, _⟩ => rfl
    | ⟨1, _⟩ => exact hcr
  · refine (TileValue.pay2_apply _ _ r).trans ?_
    simp only [View.readAt_eq_ld, harg3.read_unread, harg4.read_unread, View.ld_unit_zero (S := S1x1024x128) hz3]
    refine (congrArg (fun z => min z _) ?_).trans (min_top_left _)
    refine (View.read_writes_cons_unit_of_mem arg8.view arg8.view.junk _ _ [] _ (ix2 (0 : Fin 1) cc) rfl (fun a => ?_)).trans
      (TileValue.pay6_apply cc)
    show k0_off2 i a + 1 * ((ix2 (0 : Fin 1) r) a).val = (![0, 0] : Fin 2 → Nat) a + ((ix2 (0 : Fin 1) cc) a).val
    rw [k0_off2_eq i]
    match a with
    | ⟨0, _⟩ => rfl
    | ⟨1, _⟩ => show 1024 * (i 2).val + 1 * r.val = 0 + cc.val; omega

/-- First point of a batch, outside block m: the top element. -/
theorem sA1_out (c : Dev nD) (i : grid0.Coords) (arg3 : Memref sig .tc .vmem S1x1024x128 .f32) (harg3 : arg3.IsWhole) (arg4 : Memref sig .tc .vmem S1x1024x128 .f32) (harg4 : arg4.IsWhole) (arg5 : Memref sig .tc .vmem S1x1x4096 .f32) (harg5 : arg5.IsWhole) (arg6 : Memref sig .tc .vmem S1x1x4096 .f32) (harg6 : arg6.IsWhole) (arg7 : Memref sig .tc .vmem S1x4096 .f32) (harg7 : arg7.IsWhole) (arg8 : Memref sig .tc .vmem S1x4096 .f32) (harg8 : arg8.IsWhole) (hc0 : cond0_0 i) (hc1 : ¬cond0_1 i) (x0 x1 : Vec Ideal S1x1024x128 .f32)
    (cc : Fin 4096) (hcr : cc.val < 1024 * (i 2).val ∨ 1024 * (i 2).val + 1024 ≤ cc.val) :
    sout0_A_1 (F := Ideal) c i arg3 harg3 arg4 harg4 arg5 harg5 arg6 harg6 arg7 harg7 arg8 harg8 hc0 hc1 x0 x1 (ix2 (0 : Fin 1) cc) = (⊤ : EReal) := by
  unfold sout0_A_1
  unfold kernelRun0_A
  dsimp only
  sl_unfold_run_names
  refine (View.read_writes_cons_unit_of_not_mem VS0_1 VS0_1.junk _ _ _ (ix2 (0 : Fin 1) cc) (k0_off2_eq i) (1 : Fin 2) ?_).trans ?_
  · exact hcr
  · refine (View.read_writes_cons_unit_of_mem VS0_1 VS0_1.junk _ _ [] (ix2 (0 : Fin 1) cc) (ix2 (0 : Fin 1) cc) rfl (fun a => ?_)).trans
      (TileValue.pay6_apply cc)
    match a with
    | ⟨0, _⟩ => exact (Nat.zero_add _).symm
    | ⟨1, _⟩ => exact (Nat.zero_add _).symm

/-- A later point, inside block m: the minimum of what the row held and the column minimum of this pair of blocks. -/
theorem sB1_in (c : Dev nD) (i : grid0.Coords) (arg3 : Memref sig .tc .vmem S1x1024x128 .f32) (harg3 : arg3.IsWhole) (arg4 : Memref sig .tc .vmem S1x1024x128 .f32) (harg4 : arg4.IsWhole) (arg5 : Memref sig .tc .vmem S1x1x4096 .f32) (harg5 : arg5.IsWhole) (arg6 : Memref sig .tc .vmem S1x1x4096 .f32) (harg6 : arg6.IsWhole) (arg7 : Memref sig .tc .vmem S1x4096 .f32) (harg7 : arg7.IsWhole) (arg8 : Memref sig .tc .vmem S1x4096 .f32) (harg8 : arg8.IsWhole) (hc0 : ¬cond0_0 i) (hc1 : ¬cond0_1 i) (x0 x1 : Vec Ideal S1x1024x128 .f32) (xs0 xs1 : Vec Ideal S1x4096 .f32)
    (cc : Fin 4096) (r : Fin 1024) (hcr : cc.val = 1024 * (i 2).val + r.val) :
    sout0_B_1 (F := Ideal) c i arg3 harg3 arg4 harg4 arg5 harg5 arg6 harg6 arg7 harg7 arg8 harg8 hc0 hc1 x0 x1 xs0 xs1 (ix2 (0 : Fin 1) cc)
      = min (xs1 (ix2 (0 : Fin 1) cc)) (k0_pay9 (F := Ideal) x0 x1 (ix2 (0 : Fin 1) r)) := by
  unfold sout0_B_1
  unfold kernelRun0_B
  dsimp only
  sl_unfold_run_names
  refine (View.read_writes_cons_unit_of_mem arg8.view (harg8.unread xs1) _ _ [] (ix2 (0 : Fin 1) cc) (ix2 (0 : Fin 1) r) (k0_off2_eq i) ?_).trans ?_
  · intro a
    match a with
    | ⟨0, _⟩ => rfl
    | ⟨1, _⟩ => exact hcr
  · refine (TileValue.pay2_apply _ _ r).trans ?_
    simp only [View.readAt_eq_ld, harg3.read_unread, harg4.read_unread, harg8.read_unread, View.ld_unit_zero (S := S1x1024x128) hz3]
    refine congrArg (fun z => min z _) ?_
    show xs1 _ = xs1 _
    refine congrArg xs1 (funext fun a => Fin.ext ?_)
    show k0_off2 i a + 1 * ((ix2 (0 : Fin 1) r) a).val = ((ix2 (0 : Fin 1) cc) a).val
    rw [k0_off2_eq i]
    match a with
    | ⟨0, _⟩ => rfl
    | ⟨1, _⟩ => show 1024 * (i 2).val + 1 * r.val = cc.val; omega

/-- A later point, outside block m: what the row held. -/
theorem sB1_out (c : Dev nD) (i : grid0.Coords) (arg3 : Memref sig .tc .vmem S1x1024x128 .f32) (harg3 : arg3.IsWhole) (arg4 : Memref sig .tc .vmem S1x1024x128 .f32) (harg4 : arg4.IsWhole) (arg5 : Memref sig .tc .vmem S1x1x4096 .f32) (harg5 : arg5.IsWhole) (arg6 : Memref sig .tc .vmem S1x1x4096 .f32) (harg6 : arg6.IsWhole) (arg7 : Memref sig .tc .vmem S1x4096 .f32) (harg7 : arg7.IsWhole) (arg8 : Memref sig .tc .vmem S1x4096 .f32) (harg8 : arg8.IsWhole) (hc0 : ¬cond0_0 i) (hc1 : ¬cond0_1 i) (x0 x1 : Vec Ideal S1x1024x128 .f32) (xs0 xs1 : Vec Ideal S1x4096 .f32)
    (cc : Fin 4096) (hcr : cc.val < 1024 * (i 2).val ∨ 1024 * (i 2).val + 1024 ≤ cc.val) :
    sout0_B_1 (F := Ideal) c i arg3 harg3 arg4 harg4 arg5 harg5 arg6 harg6 arg7 harg7 arg8 harg8 hc0 hc1 x0 x1 xs0 xs1 (ix2 (0 : Fin 1) cc) = xs1 (ix2 (0 : Fin 1) cc) := by
  unfold sout0_B_1
  unfold kernelRun0_B
  dsimp only
  sl_unfold_run_names
  refine (View.read_writes_cons_unit_of_not_mem arg8.view (harg8.unread xs1) _ _ [] (ix2 (0 : Fin 1) cc) (k0_off2_eq i) (1 : Fin 2) ?_).trans ?_
  · exact hcr
  · rw [View.writes_nil, harg8.read_unread]

/-- The last point of a batch updates the row as any later point does: inside block m, -/
theorem sC1_in (c : Dev nD) (i : grid0.Coords) (arg3 : Memref sig .tc .vmem S1x1024x128 .f32) (harg3 : arg3.IsWhole) (arg4 : Memref sig .tc .vmem S1x1024x128 .f32) (harg4 : arg4.IsWhole) (arg5 : Memref sig .tc .vmem S1x1x4096 .f32) (harg5 : arg5.IsWhole) (arg6 : Memref sig .tc .vmem S1x1x4096 .f32) (harg6 : arg6.IsWhole) (arg7 : Memref sig .tc .vmem S1x4096 .f32) (harg7 : arg7.IsWhole) (arg8 : Memref sig .tc .vmem S1x4096 .f32) (harg8 : arg8.IsWhole) (hc0 : ¬cond0_0 i) (hc1 : cond0_1 i) (x0 x1 : Vec Ideal S1x1024x128 .f32) (xs0 xs1 : Vec Ideal S1x4096 .f32)
    (cc : Fin 4096) (r : Fin 1024) (hcr : cc.val = 1024 * (i 2).val + r.val) :
    sout0_C_1 (F := Ideal) c i arg3 harg3 arg4 harg4 arg5 harg5 arg6 harg6 arg7 harg7 arg8 harg8 hc0 hc1 x0 x1 xs0 xs1 (ix2 (0 : Fin 1) cc)
      = min (xs1 (ix2 (0 : Fin 1) cc)) (k0_pay9 (F := Ideal) x0 x1 (ix2 (0 : Fin 1) r)) := by
  unfold sout0_C_1
  unfold kernelRun0_C
  dsimp only
  sl_unfold_run_names
  refine (View.read_writes_cons_unit_of_mem arg8.view (harg8.unread xs1) _ _ [] (ix2 (0 : Fin 1) cc) (ix2 (0 : Fin 1) r) (k0_off2_eq i) ?_).trans ?_
  · intro a
    match a with
    | ⟨0, _⟩ => rfl
    | ⟨1, _⟩ => exact hcr
  · refine (TileValue.pay2_apply _ _ r).trans ?_
    simp only [View.readAt_eq_ld, harg3.read_unread, harg4.read_unread, harg8.read_unread, View.ld_unit_zero (S := S1x1024x128) hz3]
    refine congrArg (fun z => min z _) ?_
    show xs1 _ = xs1 _
    refine congrArg xs1 (funext fun a => Fin.ext ?_)
    show k0_off2 i a + 1 * ((ix2 (0 : Fin 1) r) a).val = ((ix2 (0 : Fin 1) cc) a).val
    rw [k0_off2_eq i]
    match a with
    | ⟨0, _⟩ => rfl
    | ⟨1, _⟩ => show 1024 * (i 2).val + 1 * r.val = cc.val; omega

/-- and outside it. -/
theorem sC1_out (c : Dev nD) (i : grid0.Coords) (arg3 : Memref sig .tc .vmem S1x1024x128 .f32) (harg3 : arg3.IsWhole) (arg4 : Memref sig .tc .vmem S1x1024x128 .f32) (harg4 : arg4.IsWhole) (arg5 : Memref sig .tc .vmem S1x1x4096 .f32) (harg5 : arg5.IsWhole) (arg6 : Memref sig .tc .vmem S1x1x4096 .f32) (harg6 : arg6.IsWhole) (arg7 : Memref sig .tc .vmem S1x4096 .f32) (harg7 : arg7.IsWhole) (arg8 : Memref sig .tc .vmem S1x4096 .f32) (harg8 : arg8.IsWhole) (hc0 : ¬cond0_0 i) (hc1 : cond0_1 i) (x0 x1 : Vec Ideal S1x1024x128 .f32) (xs0 xs1 : Vec Ideal S1x4096 .f32)
    (cc : Fin 4096) (hcr : cc.val < 1024 * (i 2).val ∨ 1024 * (i 2).val + 1024 ≤ cc.val) :
    sout0_C_1 (F := Ideal) c i arg3 harg3 arg4 harg4 arg5 harg5 arg6 harg6 arg7 harg7 arg8 harg8 hc0 hc1 x0 x1 xs0 xs1 (ix2 (0 : Fin 1) cc) = xs1 (ix2 (0 : Fin 1) cc) := by
  unfold sout0_C_1
  unfold kernelRun0_C
  dsimp only
  sl_unfold_run_names
  refine (View.read_writes_cons_unit_of_not_mem arg8.view (harg8.unread xs1) _ _ [] (ix2 (0 : Fin 1) cc) (k0_off2_eq i) (1 : Fin 2) ?_).trans ?_
  · exact hcr
  · rw [View.writes_nil, harg8.read_unread]

/-- At the last point of a batch the output receives the row as that point leaves it. -/
theorem oC3 (c : Dev nD) (i : grid0.Coords) (arg3 : Memref sig .tc .vmem S1x1024x128 .f32) (harg3 : arg3.IsWhole) (arg4 : Memref sig .tc .vmem S1x1024x128 .f32) (harg4 : arg4.IsWhole) (arg5 : Memref sig .tc .vmem S1x1x4096 .f32) (harg5 : arg5.IsWhole) (arg6 : Memref sig .tc .vmem S1x1x4096 .f32) (harg6 : arg6.IsWhole) (arg7 : Memref sig .tc .vmem S1x4096 .f32) (harg7 : arg7.IsWhole) (arg8 : Memref sig .tc .vmem S1x4096 .f32) (harg8 : arg8.IsWhole) (hc0 : ¬cond0_0 i) (hc1 : cond0_1 i) (x0 x1 : Vec Ideal S1x1024x128 .f32) (xs0 xs1 : Vec Ideal S1x4096 .f32)
    (cc : Fin 4096) :
    out0_C_3 (F := Ideal) c i arg3 harg3 arg4 harg4 arg5 harg5 arg6 harg6 arg7 harg7 arg8 harg8 hc0 hc1 x0 x1 xs0 xs1 (ix3 (0 : Fin 1) (0 : Fin 1) cc)
      = sout0_C_1 (F := Ideal) c i arg3 harg3 arg4 harg4 arg5 harg5 arg6 harg6 arg7 harg7 arg8 harg8 hc0 hc1 x0 x1 xs0 xs1 (ix2 (0 : Fin 1) cc) := by
  unfold out0_C_3 sout0_C_1
  unfold kernelRun0_C
  dsimp only
  sl_unfold_run_names
  refine (View.read_writes_cons_unit_of_mem VO0_3 VO0_3.junk _ _ [] (ix3 (0 : Fin 1) (0 : Fin 1) cc) (ix3 (0 : Fin 1) (0 : Fin 1) cc) rfl (fun a => ?_)).trans ?_
  · match a with
    | ⟨0, _⟩ => exact (Nat.zero_add _).symm
    | ⟨1, _⟩ => exact (Nat.zero_add _).symm
    | ⟨2, _⟩ => exact (Nat.zero_add _).symm
  · refine (TileValue.pay4_apply _ cc).trans ?_
    exact congrFun (View.ld_unit_zero (S := S1x4096) hz2 inb_S1x4096_S1x4096_0_0 _) (ix2 (0 : Fin 1) cc)

end Cert.KernelIdeal.PieceValue

end
-- ==== Proof.Blocks.lean ====
/-
  The blocks a grid point meets, as parts of the two point sets, and the minima over one pair of blocks.

  Grid point t of the 8 × 4 × 4 grid is (b, n, m) with b = ⌊t/16⌋, n = ⌊t/4⌋ mod 4, m = t mod 4. Its first input block is
  rows 1024 n … 1024 n + 1023 of batch b of the first array, its second input block rows 1024 m … 1024 m + 1023 of batch b
  of the second; so the distance table of the two blocks is the batch's distance table on block (n, m), and its row
  and column minima are the table's minima within that block.
-/
import proofs.«140551_j84189948936347_2_alg».proof.Proof.Gen.KernelIdeal.Frame
import proofs.«140551_j84189948936347_2_alg».proof.Proof.TilePayload
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.BlockValue

open Cert.KernelIdeal Cert.KernelIdeal.Gen

/-- The three coordinates of a grid point. -/
theorem coords_val : ∀ t : Fin cfg0.N,
    (grid0.coords t (0 : Fin 3)).val = t.val / 16 ∧ (grid0.coords t (1 : Fin 3)).val = t.val / 4 % 4 ∧ (grid0.coords t (2 : Fin 3)).val = t.val % 4 :=
  (by decide +kernel : ∀ t : Fin grid0.N, _)

/-- The first input's block index at a point: (b, n, 0). -/
theorem index0 : ∀ t : Fin cfg0.N,
    win0_0.index t (0 : Fin 3) = t.val / 16 ∧ win0_0.index t (1 : Fin 3) = t.val / 4 % 4 ∧ win0_0.index t (2 : Fin 3) = 0 :=
  (by decide +kernel : ∀ t : Fin grid0.N, _)

/-- The second input's block index at a point: (b, m, 0). -/
theorem index1 : ∀ t : Fin cfg0.N,
    win0_1.index t (0 : Fin 3) = t.val / 16 ∧ win0_1.index t (1 : Fin 3) = t.val % 4 ∧ win0_1.index t (2 : Fin 3) = 0 :=
  (by decide +kernel : ∀ t : Fin grid0.N, _)

/-- The first output's block index at a point: (b, 0, 0). -/
theorem index2 : ∀ t : Fin cfg0.N,
    win0_2.index t (0 : Fin 3) = t.val / 16 ∧ win0_2.index t (1 : Fin 3) = 0 ∧ win0_2.index t (2 : Fin 3) = 0 :=
  (by decide +kernel : ∀ t : Fin grid0.N, _)

/-- The second output's block index at a point: (b, 0, 0). -/
theorem index3 : ∀ t : Fin cfg0.N,
    win0_3.index t (0 : Fin 3) = t.val / 16 ∧ win0_3.index t (1 : Fin 3) = 0 ∧ win0_3.index t (2 : Fin 3) = 0 :=
  (by decide +kernel : ∀ t : Fin grid0.N, _)

variable (m : (ℓ : Loc nD τ sig) → Buf (Elt Ideal) ℓ)

/-- The first point set and the second, as the kernel's region finds them. -/
abbrev X (c : Dev nD) : FVec Ideal Chamfer.Pts .f32 := V m c main_arg0
abbrev Y (c : Dev nD) : FVec Ideal Chamfer.Pts .f32 := V m c main_arg1

/-- The table of distances of batch b. -/
def D (c : Dev nD) (b : Fin 8) : Fin 4096 → Fin 4096 → EReal := fun p q => Chamfer.dist (X m c) (Y m c) b p q

/-- Row r of the first input block at point t is point 1024 n + r of batch b of the first array. -/
theorem iblk0_apply (c : Dev nD) (t : Fin cfg0.N) (r : Fin 1024) (k : Fin 128) (b : Fin 8) (p : Fin 4096)
    (hb : b.val = t.val / 16) (hp : p.val = 1024 * (t.val / 4 % 4) + r.val) :
    (iblk m c 0 t : Vec Ideal S1x1024x128 .f32) (ix3 (0 : Fin 1) r k) = X m c (ix3 b p k) := by
  unfold iblk
  rw [View.read_apply]
  show V m c main_arg0 _ = V m c main_arg0 _
  refine congrArg (V m c main_arg0) (funext fun a => Fin.ext ?_)
  match a with
  | ⟨0, _⟩ => show win0_0.index t (0 : Fin 3) * 1 + 1 * 0 = b.val; rw [(index0 t).1, hb]; omega
  | ⟨1, _⟩ => show win0_0.index t (1 : Fin 3) * 1024 + 1 * r.val = p.val; rw [(index0 t).2.1, hp]; omega
  | ⟨2, _⟩ => show win0_0.index t (2 : Fin 3) * 128 + 1 * k.val = k.val; rw [(index0 t).2.2]; omega

/-- Row s of the second input block at point t is point 1024 m + s of batch b of the second array. -/
theorem iblk1_apply (c : Dev nD) (t : Fin cfg0.N) (s : Fin 1024) (k : Fin 128) (b : Fin 8) (q : Fin 4096)
    (hb : b.val = t.val / 16) (hq : q.val = 1024 * (t.val % 4) + s.val) :
    (iblk m c 1 t : Vec Ideal S1x1024x128 .f32) (ix3 (0 : Fin 1) s k) = Y m c (ix3 b q k) := by
  unfold iblk
  rw [View.read_apply]
  show V m c main_arg1 _ = V m c main_arg1 _
  refine congrArg (V m c main_arg1) (funext fun a => Fin.ext ?_)
  match a with
  | ⟨0, _⟩ => show win0_1.index t (0 : Fin 3) * 1 + 1 * 0 = b.val; rw [(index1 t).1, hb]; omega
  | ⟨1, _⟩ => show win0_1.index t (1 : Fin 3) * 1024 + 1 * s.val = q.val; rw [(index1 t).2.1, hq]; omega
  | ⟨2, _⟩ => show win0_1.index t (2 : Fin 3) * 128 + 1 * k.val = k.val; rw [(index1 t).2.2]; omega

/-- The distance table of the two input blocks at point (b, n, m) is the batch's table on block (n, m). -/
theorem blkDist_eq (c : Dev nD) (t : Fin cfg0.N) (b : Fin 8) (n mm : Fin 4) (hb : b.val = t.val / 16) (hn : n.val = t.val / 4 % 4)
    (hm : mm.val = t.val % 4) (r s : Fin 1024) :
    Chamfer.blkDist (iblk m c 0 t) (iblk m c 1 t) r s = D m c b (Chamfer.at4 n r) (Chamfer.at4 mm s) := by
  have e0 : ∀ k : Fin 128, (iblk m c 0 t : Vec Ideal S1x1024x128 .f32) (ix3 (0 : Fin 1) r k) = X m c (ix3 b (Chamfer.at4 n r) k) :=
    fun k => iblk0_apply m c t r k b (Chamfer.at4 n r) hb (by show n.val * 1024 + r.val = _; omega)
  have e1 : ∀ k : Fin 128, (iblk m c 1 t : Vec Ideal S1x1024x128 .f32) (ix3 (0 : Fin 1) s k) = Y m c (ix3 b (Chamfer.at4 mm s) k) :=
    fun k => iblk1_apply m c t s k b (Chamfer.at4 mm s) hb (by show mm.val * 1024 + s.val = _; omega)
  unfold Chamfer.blkDist D Chamfer.dist Chamfer.sqn Chamfer.cross
  simp only [e0, e1]

/-- The row minima of the pair of blocks at point (b, n, m). -/
theorem pay8_tile (c : Dev nD) (t : Fin cfg0.N) (b : Fin 8) (n mm : Fin 4) (hb : b.val = t.val / 16) (hn : n.val = t.val / 4 % 4)
    (hm : mm.val = t.val % 4) (r : Fin 1024) :
    k0_pay8 (F := Ideal) (iblk m c 0 t) (iblk m c 1 t) (ix2 (0 : Fin 1) r) = Chamfer.tileRowMin (D m c b) n mm r := by
  refine (TileValue.pay8_apply (iblk m c 0 t) (iblk m c 1 t) r).trans ?_
  unfold Chamfer.tileRowMin
  exact Finset.inf_congr rfl fun s _ => blkDist_eq m c t b n mm hb hn hm r s

/-- The column minima of the pair of blocks at point (b, n, m). -/
theorem pay9_tile (c : Dev nD) (t : Fin cfg0.N) (b : Fin 8) (n mm : Fin 4) (hb : b.val = t.val / 16) (hn : n.val = t.val / 4 % 4)
    (hm : mm.val = t.val % 4) (s : Fin 1024) :
    k0_pay9 (F := Ideal) (iblk m c 0 t) (iblk m c 1 t) (ix2 (0 : Fin 1) s) = Chamfer.tileColMin (D m c b) n mm s := by
  refine (TileValue.pay9_apply (iblk m c 0 t) (iblk m c 1 t) s).trans ?_
  unfold Chamfer.tileColMin
  exact Finset.inf_congr rfl fun r _ => blkDist_eq m c t b n mm hb hn hm r s

end Cert.KernelIdeal.BlockValue

end
-- ==== Proof.AccAlgebra.lean ====
/-
  How the running minimum over the 4 × 4 pairs of blocks grows.

  The 4096 points split into 4 blocks of 1024; a point `p` is `at4 n r` with block `n = ⌊p/1024⌋` and within-block
  coordinate `r = p mod 1024`. The running minimum of row `p` after position `k` is the infimum over the columns `q`
  with `4 ⌊p/1024⌋ + ⌊q/1024⌋ ≤ k`. Going from `k` to `k + 1 = 4 n + m` adds exactly the columns of block `m` when
  `p` lies in block `n`, and nothing otherwise; the infimum of a union is the minimum of the infima. At position 0 only
  the pair of blocks (0, 0) has been met, and at position 15 every pair has. Columns are the mirror image.
-/
import proofs.«140551_j84189948936347_2_alg».proof.Proof.Spec

noncomputable section

namespace Cert.Chamfer

variable (d : Fin 4096 → Fin 4096 → EReal)

/-- the within-block coordinate of a point -/
def rem4 (p : Fin 4096) : Fin 1024 := ⟨p.val % 1024, Nat.mod_lt _ (by decide)⟩

/-- A point of block `n` is `at4 n` of its within-block coordinate. -/
theorem at4_rem4 (n : Fin 4) (p : Fin 4096) (h : p.val / 1024 = n.val) : at4 n (rem4 p) = p := by
  apply Fin.ext
  simp only [at4, rem4]
  omega

/-- The block of `at4 m s` is `m`. -/
theorem at4_div (m : Fin 4) (s : Fin 1024) : (at4 m s).val / 1024 = m.val := by
  have hs := s.isLt
  simp only [at4]
  omega

/-- The infimum over the points of block `m` is the infimum over the within-block coordinates. -/
theorem inf_block (f : Fin 4096 → EReal) (m : Fin 4) :
    (Finset.univ.filter fun q : Fin 4096 => q.val / 1024 = m.val).inf f
      = Finset.univ.inf fun s : Fin 1024 => f (at4 m s) := by
  apply le_antisymm
  · refine Finset.le_inf fun s _ => Finset.inf_le ?_
    simp only [Finset.mem_filter, Finset.mem_univ, true_and]
    exact at4_div m s
  · refine Finset.le_inf fun q hq => ?_
    simp only [Finset.mem_filter, Finset.mem_univ, true_and] at hq
    have hq' : f q = (fun s : Fin 1024 => f (at4 m s)) (rem4 q) := by
      show f q = f (at4 m (rem4 q))
      rw [at4_rem4 m q hq]
    rw [hq']
    exact Finset.inf_le (Finset.mem_univ _)

/-! ## Rows -/

theorem rowAcc_zero (p : Fin 4096) :
    rowAcc d 0 p = if p.val / 1024 = 0 then tileRowMin d 0 0 (rem4 p) else ⊤ := by
  have hp := p.isLt
  split_ifs with h
  · have hset : (Finset.univ.filter fun q : Fin 4096 => (p.val / 1024) * 4 + q.val / 1024 ≤ 0)
        = Finset.univ.filter fun q : Fin 4096 => q.val / 1024 = (0 : Fin 4).val := by
      ext q
      simp only [Finset.mem_filter, Finset.mem_univ, true_and, Fin.val_zero]
      omega
    unfold rowAcc tileRowMin
    rw [hset, inf_block, at4_rem4 0 p (by simpa using h)]
  · have hset : (Finset.univ.filter fun q : Fin 4096 => (p.val / 1024) * 4 + q.val / 1024 ≤ 0) = ∅ := by
      ext q
      simp only [Finset.mem_filter, Finset.mem_univ, true_and, Finset.notMem_empty, iff_false]
      omega
    unfold rowAcc
    rw [hset, Finset.inf_empty]

theorem rowAcc_succ (k : ℕ) (n m : Fin 4) (hk : k + 1 = n.val * 4 + m.val) (p : Fin 4096) :
    rowAcc d (k + 1) p
      = if p.val / 1024 = n.val then min (rowAcc d k p) (tileRowMin d n m (rem4 p)) else rowAcc d k p := by
  have hp := p.isLt
  have hn := n.isLt
  have hm := m.isLt
  split_ifs with h
  · have hset : (Finset.univ.filter fun q : Fin 4096 => (p.val / 1024) * 4 + q.val / 1024 ≤ k + 1)
        = (Finset.univ.filter fun q : Fin 4096 => (p.val / 1024) * 4 + q.val / 1024 ≤ k)
          ∪ (Finset.univ.filter fun q : Fin 4096 => q.val / 1024 = m.val) := by
      ext q
      have hq := q.isLt
      simp only [Finset.mem_union, Finset.mem_filter, Finset.mem_univ, true_and]
      omega
    unfold rowAcc tileRowMin
    rw [hset, Finset.inf_union, inf_block, at4_rem4 n p h]
  · have hset : (Finset.univ.filter fun q : Fin 4096 => (p.val / 1024) * 4 + q.val / 1024 ≤ k + 1)
        = Finset.univ.filter fun q : Fin 4096 => (p.val / 1024) * 4 + q.val / 1024 ≤ k := by
      ext q
      have hq := q.isLt
      simp only [Finset.mem_filter, Finset.mem_univ, true_and]
      omega
    unfold rowAcc
    rw [hset]

theorem rowAcc_last (p : Fin 4096) : rowAcc d 15 p = Finset.univ.inf (d p) := by
  have hp := p.isLt
  unfold rowAcc
  rw [Finset.filter_true_of_mem]
  intro q _
  have hq := q.isLt
  omega

/-! ## Columns -/

theorem colAcc_zero (q : Fin 4096) :
    colAcc d 0 q = if q.val / 1024 = 0 then tileColMin d 0 0 (rem4 q) else ⊤ := by
  have hq := q.isLt
  split_ifs with h
  · have hset : (Finset.univ.filter fun p : Fin 4096 => (p.val / 1024) * 4 + q.val / 1024 ≤ 0)
        = Finset.univ.filter fun p : Fin 4096 => p.val / 1024 = (0 : Fin 4).val := by
      ext p
      simp only [Finset.mem_filter, Finset.mem_univ, true_and, Fin.val_zero]
      omega
    unfold colAcc tileColMin
    rw [hset, inf_block (fun p => d p q), at4_rem4 0 q (by simpa using h)]
  · have hset : (Finset.univ.filter fun p : Fin 4096 => (p.val / 1024) * 4 + q.val / 1024 ≤ 0) = ∅ := by
      ext p
      simp only [Finset.mem_filter, Finset.mem_univ, true_and, Finset.notMem_empty, iff_false]
      omega
    unfold colAcc
    rw [hset, Finset.inf_empty]

theorem colAcc_succ (k : ℕ) (n m : Fin 4) (hk : k + 1 = n.val * 4 + m.val) (q : Fin 4096) :
    colAcc d (k + 1) q
      = if q.val / 1024 = m.val then min (colAcc d k q) (tileColMin d n m (rem4 q)) else colAcc d k q := by
  have hq := q.isLt
  have hn := n.isLt
  have hm := m.isLt
  split_ifs with h
  · have hset : (Finset.univ.filter fun p : Fin 4096 => (p.val / 1024) * 4 + q.val / 1024 ≤ k + 1)
        = (Finset.univ.filter fun p : Fin 4096 => (p.val / 1024) * 4 + q.val / 1024 ≤ k)
          ∪ (Finset.univ.filter fun p : Fin 4096 => p.val / 1024 = n.val) := by
      ext p
      have hp := p.isLt
      simp only [Finset.mem_union, Finset.mem_filter, Finset.mem_univ, true_and]
      omega
    unfold colAcc tileColMin
    rw [hset, Finset.inf_union, inf_block (fun p => d p q), at4_rem4 m q h]
  · have hset : (Finset.univ.filter fun p : Fin 4096 => (p.val / 1024) * 4 + q.val / 1024 ≤ k + 1)
        = Finset.univ.filter fun p : Fin 4096 => (p.val / 1024) * 4 + q.val / 1024 ≤ k := by
      ext p
      have hp := p.isLt
      simp only [Finset.mem_filter, Finset.mem_univ, true_and]
      omega
    unfold colAcc
    rw [hset]

theorem colAcc_last (q : Fin 4096) : colAcc d 15 q = Finset.univ.inf fun p => d p q := by
  have hq := q.isLt
  unfold colAcc
  rw [Finset.filter_true_of_mem]
  intro p _
  have hp := p.isLt
  omega

end Cert.Chamfer

end
-- ==== Proof.Invariant.lean ====
/-
  The two running rows after every grid point, and what the outputs receive.

  Within batch b the 16 points (n, m) are met in row-major order, at positions k = 4 n + m. After the point at position k
  the first running row holds, at p, the least distance from point p of the first set to the points q of the second
  set with 4 ⌊p/1024⌋ + ⌊q/1024⌋ ≤ k, and the second running row holds, at q, the least distance from point q of the second set
  to the points p of the first with the same bound; by induction on the point, the first point of a batch starting both
  rows from the top element. At the last point of a batch (k = 15) the bound holds of every pair, so the rows are the
  minima over all 4096 points, and that is what the two outputs receive there.
-/
import proofs.«140551_j84189948936347_2_alg».proof.Proof.Pieces
import proofs.«140551_j84189948936347_2_alg».proof.Proof.Blocks
import proofs.«140551_j84189948936347_2_alg».proof.Proof.AccAlgebra

noncomputable section

open Idealize.ShloMosaic Idealize.ShloMosaic.TcCoe Idealize.SL.Sem Idealize.ShloMosaic.ValueIdx

namespace Cert.KernelIdeal.AccValue

open Cert.KernelIdeal Cert.KernelIdeal.Gen Cert.KernelIdeal.BlockValue

variable (m : (ℓ : Loc nD τ sig) → Buf (Elt Ideal) ℓ)

/-- The first point of a batch: both rows start from the top element and meet the first pair of blocks. -/
theorem stepA (c : Dev nD) (t : Fin cfg0.N) (h0 : t.val % 16 = 0) (b : Fin 8) (hb : b.val = t.val / 16) (cc : Fin 4096) :
    (outsAt0 m c t.val t.isLt).2.2.1 (ix2 (0 : Fin 1) cc) = Chamfer.rowAcc (D m c b) (t.val % 16) cc
    ∧ (outsAt0 m c t.val t.isLt).2.2.2 (ix2 (0 : Fin 1) cc) = Chamfer.colAcc (D m c b) (t.val % 16) cc := by
  have hN : t.val < 128 := lt_of_lt_of_eq t.isLt (show cfg0.N = 128 from N_0)
  have h1 : ¬t.val % 16 = 15 := by omega
  obtain ⟨hc0, hc1, hc2⟩ := coords_val t
  have e := outsAt0_A m c t h0 h1
  have hr : (Chamfer.rem4 cc).val = cc.val % 1024 := rfl
  have hcc : cc.val < 4096 := cc.isLt
  have hn0 : (0 : Fin 4).val = t.val / 4 % 4 := by show 0 = t.val / 4 % 4; omega
  have hm0 : (0 : Fin 4).val = t.val % 4 := by show 0 = t.val % 4; omega
  have hrow := (congrArg (fun k => Chamfer.rowAcc (D m c b) k cc) h0).trans (Chamfer.rowAcc_zero (D m c b) cc)
  have hcol := (congrArg (fun k => Chamfer.colAcc (D m c b) k cc) h0).trans (Chamfer.colAcc_zero (D m c b) cc)
  constructor
  · have e3 := congrArg (fun z => z.2.2.1) e
    dsimp only at e3
    rw [e3]
    refine Eq.trans ?_ hrow.symm
    by_cases hin : cc.val / 1024 = 0
    · rw [if_pos hin]
      refine (PieceValue.sA0_in c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) cc (Chamfer.rem4 cc) ?_).trans ?_
      · show cc.val = 1024 * (grid0.coords t (1 : Fin 3)).val + (Chamfer.rem4 cc).val
        rw [hc1, hr]; omega
      · exact pay8_tile m c t b (0 : Fin 4) (0 : Fin 4) hb hn0 hm0 (Chamfer.rem4 cc)
    · rw [if_neg hin]
      refine PieceValue.sA0_out c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) cc ?_
      show cc.val < 1024 * (grid0.coords t (1 : Fin 3)).val ∨ 1024 * (grid0.coords t (1 : Fin 3)).val + 1024 ≤ cc.val
      rw [hc1]; omega
  · have e4 := congrArg (fun z => z.2.2.2) e
    dsimp only at e4
    rw [e4]
    refine Eq.trans ?_ hcol.symm
    by_cases hin : cc.val / 1024 = 0
    · rw [if_pos hin]
      refine (PieceValue.sA1_in c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) cc (Chamfer.rem4 cc) ?_).trans ?_
      · show cc.val = 1024 * (grid0.coords t (2 : Fin 3)).val + (Chamfer.rem4 cc).val
        rw [hc2, hr]; omega
      · exact pay9_tile m c t b (0 : Fin 4) (0 : Fin 4) hb hn0 hm0 (Chamfer.rem4 cc)
    · rw [if_neg hin]
      refine PieceValue.sA1_out c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) cc ?_
      show cc.val < 1024 * (grid0.coords t (2 : Fin 3)).val ∨ 1024 * (grid0.coords t (2 : Fin 3)).val + 1024 ≤ cc.val
      rw [hc2]; omega

/-- A point of a batch that is not its first nor its last: the rows after it, from the rows after the point before. -/
theorem stepB (c : Dev nD) (t : Fin cfg0.N) (h0 : ¬t.val % 16 = 0) (h1 : ¬t.val % 16 = 15) (b : Fin 8) (hb : b.val = t.val / 16)
    (IH : ∀ cc : Fin 4096,
      (outsAt0 m c (t.val - 1) (Nat.lt_of_le_of_lt (Nat.sub_le _ _) t.isLt)).2.2.1 (ix2 (0 : Fin 1) cc) = Chamfer.rowAcc (D m c b) (t.val % 16 - 1) cc
      ∧ (outsAt0 m c (t.val - 1) (Nat.lt_of_le_of_lt (Nat.sub_le _ _) t.isLt)).2.2.2 (ix2 (0 : Fin 1) cc) = Chamfer.colAcc (D m c b) (t.val % 16 - 1) cc)
    (cc : Fin 4096) :
    (outsAt0 m c t.val t.isLt).2.2.1 (ix2 (0 : Fin 1) cc) = Chamfer.rowAcc (D m c b) (t.val % 16) cc
    ∧ (outsAt0 m c t.val t.isLt).2.2.2 (ix2 (0 : Fin 1) cc) = Chamfer.colAcc (D m c b) (t.val % 16) cc := by
  have hN : t.val < 128 := lt_of_lt_of_eq t.isLt (show cfg0.N = 128 from N_0)
  obtain ⟨hc0, hc1, hc2⟩ := coords_val t
  have hk : (t.val % 16 - 1) + 1 = (⟨t.val / 4 % 4, Nat.mod_lt _ (by decide)⟩ : Fin 4).val * 4 + (⟨t.val % 4, Nat.mod_lt _ (by decide)⟩ : Fin 4).val := by
    show (t.val % 16 - 1) + 1 = t.val / 4 % 4 * 4 + t.val % 4
    omega
  have hk' : t.val % 16 = (t.val % 16 - 1) + 1 := by omega
  have e := outsAt0_B m c t h0 h1
  have hr : (Chamfer.rem4 cc).val = cc.val % 1024 := rfl
  have hcc : cc.val < 4096 := cc.isLt
  have hrow := (congrArg (fun k => Chamfer.rowAcc (D m c b) k cc) hk').trans
    (Chamfer.rowAcc_succ (D m c b) (t.val % 16 - 1) (⟨t.val / 4 % 4, Nat.mod_lt _ (by decide)⟩ : Fin 4) (⟨t.val % 4, Nat.mod_lt _ (by decide)⟩ : Fin 4) hk cc)
  have hcol := (congrArg (fun k => Chamfer.colAcc (D m c b) k cc) hk').trans
    (Chamfer.colAcc_succ (D m c b) (t.val % 16 - 1) (⟨t.val / 4 % 4, Nat.mod_lt _ (by decide)⟩ : Fin 4) (⟨t.val % 4, Nat.mod_lt _ (by decide)⟩ : Fin 4) hk cc)
  constructor
  · have e3 := congrArg (fun z => z.2.2.1) e
    dsimp only at e3
    rw [e3]
    refine Eq.trans ?_ hrow.symm
    by_cases hin : cc.val / 1024 = t.val / 4 % 4
    · rw [if_pos (show cc.val / 1024 = (⟨t.val / 4 % 4, Nat.mod_lt _ (by decide)⟩ : Fin 4).val from hin)]
      refine (PieceValue.sB0_in c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 cc (Chamfer.rem4 cc) ?_).trans ?_
      · show cc.val = 1024 * (grid0.coords t (1 : Fin 3)).val + (Chamfer.rem4 cc).val
        rw [hc1, hr]; omega
      · exact congrArg₂ min (IH cc).1 (pay8_tile m c t b (⟨t.val / 4 % 4, Nat.mod_lt _ (by decide)⟩ : Fin 4) (⟨t.val % 4, Nat.mod_lt _ (by decide)⟩ : Fin 4) hb rfl rfl (Chamfer.rem4 cc))
    · rw [if_neg (show ¬cc.val / 1024 = (⟨t.val / 4 % 4, Nat.mod_lt _ (by decide)⟩ : Fin 4).val from hin)]
      refine (PieceValue.sB0_out c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 cc ?_).trans (IH cc).1
      show cc.val < 1024 * (grid0.coords t (1 : Fin 3)).val ∨ 1024 * (grid0.coords t (1 : Fin 3)).val + 1024 ≤ cc.val
      rw [hc1]; omega
  · have e4 := congrArg (fun z => z.2.2.2) e
    dsimp only at e4
    rw [e4]
    refine Eq.trans ?_ hcol.symm
    by_cases hin : cc.val / 1024 = t.val % 4
    · rw [if_pos (show cc.val / 1024 = (⟨t.val % 4, Nat.mod_lt _ (by decide)⟩ : Fin 4).val from hin)]
      refine (PieceValue.sB1_in c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 cc (Chamfer.rem4 cc) ?_).trans ?_
      · show cc.val = 1024 * (grid0.coords t (2 : Fin 3)).val + (Chamfer.rem4 cc).val
        rw [hc2, hr]; omega
      · exact congrArg₂ min (IH cc).2 (pay9_tile m c t b (⟨t.val / 4 % 4, Nat.mod_lt _ (by decide)⟩ : Fin 4) (⟨t.val % 4, Nat.mod_lt _ (by decide)⟩ : Fin 4) hb rfl rfl (Chamfer.rem4 cc))
    · rw [if_neg (show ¬cc.val / 1024 = (⟨t.val % 4, Nat.mod_lt _ (by decide)⟩ : Fin 4).val from hin)]
      refine (PieceValue.sB1_out c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 cc ?_).trans (IH cc).2
      show cc.val < 1024 * (grid0.coords t (2 : Fin 3)).val ∨ 1024 * (grid0.coords t (2 : Fin 3)).val + 1024 ≤ cc.val
      rw [hc2]; omega

/-- A point of a batch that is not its first, and is its last: the rows after it, from the rows after the point before. -/
theorem stepC (c : Dev nD) (t : Fin cfg0.N) (h0 : ¬t.val % 16 = 0) (h1 : t.val % 16 = 15) (b : Fin 8) (hb : b.val = t.val / 16)
    (IH : ∀ cc : Fin 4096,
      (outsAt0 m c (t.val - 1) (Nat.lt_of_le_of_lt (Nat.sub_le _ _) t.isLt)).2.2.1 (ix2 (0 : Fin 1) cc) = Chamfer.rowAcc (D m c b) (t.val % 16 - 1) cc
      ∧ (outsAt0 m c (t.val - 1) (Nat.lt_of_le_of_lt (Nat.sub_le _ _) t.isLt)).2.2.2 (ix2 (0 : Fin 1) cc) = Chamfer.colAcc (D m c b) (t.val % 16 - 1) cc)
    (cc : Fin 4096) :
    (outsAt0 m c t.val t.isLt).2.2.1 (ix2 (0 : Fin 1) cc) = Chamfer.rowAcc (D m c b) (t.val % 16) cc
    ∧ (outsAt0 m c t.val t.isLt).2.2.2 (ix2 (0 : Fin 1) cc) = Chamfer.colAcc (D m c b) (t.val % 16) cc := by
  have hN : t.val < 128 := lt_of_lt_of_eq t.isLt (show cfg0.N = 128 from N_0)
  obtain ⟨hc0, hc1, hc2⟩ := coords_val t
  have hk : (t.val % 16 - 1) + 1 = (⟨t.val / 4 % 4, Nat.mod_lt _ (by decide)⟩ : Fin 4).val * 4 + (⟨t.val % 4, Nat.mod_lt _ (by decide)⟩ : Fin 4).val := by
    show (t.val % 16 - 1) + 1 = t.val / 4 % 4 * 4 + t.val % 4
    omega
  have hk' : t.val % 16 = (t.val % 16 - 1) + 1 := by omega
  have e := outsAt0_C m c t h0 h1
  have hr : (Chamfer.rem4 cc).val = cc.val % 1024 := rfl
  have hcc : cc.val < 4096 := cc.isLt
  have hrow := (congrArg (fun k => Chamfer.rowAcc (D m c b) k cc) hk').trans
    (Chamfer.rowAcc_succ (D m c b) (t.val % 16 - 1) (⟨t.val / 4 % 4, Nat.mod_lt _ (by decide)⟩ : Fin 4) (⟨t.val % 4, Nat.mod_lt _ (by decide)⟩ : Fin 4) hk cc)
  have hcol := (congrArg (fun k => Chamfer.colAcc (D m c b) k cc) hk').trans
    (Chamfer.colAcc_succ (D m c b) (t.val % 16 - 1) (⟨t.val / 4 % 4, Nat.mod_lt _ (by decide)⟩ : Fin 4) (⟨t.val % 4, Nat.mod_lt _ (by decide)⟩ : Fin 4) hk cc)
  constructor
  · have e3 := congrArg (fun z => z.2.2.1) e
    dsimp only at e3
    rw [e3]
    refine Eq.trans ?_ hrow.symm
    by_cases hin : cc.val / 1024 = t.val / 4 % 4
    · rw [if_pos (show cc.val / 1024 = (⟨t.val / 4 % 4, Nat.mod_lt _ (by decide)⟩ : Fin 4).val from hin)]
      refine (PieceValue.sC0_in c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 cc (Chamfer.rem4 cc) ?_).trans ?_
      · show cc.val = 1024 * (grid0.coords t (1 : Fin 3)).val + (Chamfer.rem4 cc).val
        rw [hc1, hr]; omega
      · exact congrArg₂ min (IH cc).1 (pay8_tile m c t b (⟨t.val / 4 % 4, Nat.mod_lt _ (by decide)⟩ : Fin 4) (⟨t.val % 4, Nat.mod_lt _ (by decide)⟩ : Fin 4) hb rfl rfl (Chamfer.rem4 cc))
    · rw [if_neg (show ¬cc.val / 1024 = (⟨t.val / 4 % 4, Nat.mod_lt _ (by decide)⟩ : Fin 4).val from hin)]
      refine (PieceValue.sC0_out c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 cc ?_).trans (IH cc).1
      show cc.val < 1024 * (grid0.coords t (1 : Fin 3)).val ∨ 1024 * (grid0.coords t (1 : Fin 3)).val + 1024 ≤ cc.val
      rw [hc1]; omega
  · have e4 := congrArg (fun z => z.2.2.2) e
    dsimp only at e4
    rw [e4]
    refine Eq.trans ?_ hcol.symm
    by_cases hin : cc.val / 1024 = t.val % 4
    · rw [if_pos (show cc.val / 1024 = (⟨t.val % 4, Nat.mod_lt _ (by decide)⟩ : Fin 4).val from hin)]
      refine (PieceValue.sC1_in c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 cc (Chamfer.rem4 cc) ?_).trans ?_
      · show cc.val = 1024 * (grid0.coords t (2 : Fin 3)).val + (Chamfer.rem4 cc).val
        rw [hc2, hr]; omega
      · exact congrArg₂ min (IH cc).2 (pay9_tile m c t b (⟨t.val / 4 % 4, Nat.mod_lt _ (by decide)⟩ : Fin 4) (⟨t.val % 4, Nat.mod_lt _ (by decide)⟩ : Fin 4) hb rfl rfl (Chamfer.rem4 cc))
    · rw [if_neg (show ¬cc.val / 1024 = (⟨t.val % 4, Nat.mod_lt _ (by decide)⟩ : Fin 4).val from hin)]
      refine (PieceValue.sC1_out c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 cc ?_).trans (IH cc).2
      show cc.val < 1024 * (grid0.coords t (2 : Fin 3)).val ∨ 1024 * (grid0.coords t (2 : Fin 3)).val + 1024 ≤ cc.val
      rw [hc2]; omega

/-- After every grid point: the rows hold the minima over the pairs of blocks met so far in the point's batch. -/
theorem inv (c : Dev nD) : ∀ (n : ℕ) (hn : n < cfg0.N) (b : Fin 8) (hb : b.val = n / 16) (cc : Fin 4096),
    (outsAt0 m c n hn).2.2.1 (ix2 (0 : Fin 1) cc) = Chamfer.rowAcc (D m c b) (n % 16) cc
    ∧ (outsAt0 m c n hn).2.2.2 (ix2 (0 : Fin 1) cc) = Chamfer.colAcc (D m c b) (n % 16) cc
  | 0, hn, b, hb, cc => stepA m c ⟨0, hn⟩ rfl b hb cc
  | n + 1, hn, b, hb, cc => by
    have hN : n + 1 < 128 := lt_of_lt_of_eq hn (show cfg0.N = 128 from N_0)
    by_cases h0 : (n + 1) % 16 = 0
    · exact stepA m c ⟨n + 1, hn⟩ h0 b hb cc
    · have hb' : b.val = n / 16 := by rw [hb]; omega
      have ek : n % 16 = (n + 1) % 16 - 1 := by omega
      have IH : ∀ cc' : Fin 4096,
          (outsAt0 m c n (Nat.lt_of_succ_lt hn)).2.2.1 (ix2 (0 : Fin 1) cc') = Chamfer.rowAcc (D m c b) ((n + 1) % 16 - 1) cc'
          ∧ (outsAt0 m c n (Nat.lt_of_succ_lt hn)).2.2.2 (ix2 (0 : Fin 1) cc') = Chamfer.colAcc (D m c b) ((n + 1) % 16 - 1) cc' := by
        intro cc'
        have := inv c n (Nat.lt_of_succ_lt hn) b hb' cc'
        rw [ek] at this
        exact this
      by_cases h1 : (n + 1) % 16 = 15
      · exact stepC m c ⟨n + 1, hn⟩ h0 h1 b hb IH cc
      · exact stepB m c ⟨n + 1, hn⟩ h0 h1 b hb IH cc

/-- At the last point of a batch the first output receives the least distances of the first set's points. -/
theorem out2_last (c : Dev nD) (t : Fin cfg0.N) (h15 : t.val % 16 = 15) (b : Fin 8) (hb : b.val = t.val / 16) (cc : Fin 4096) :
    (outsAt0 m c t.val t.isLt).1 (ix3 (0 : Fin 1) (0 : Fin 1) cc) = Chamfer.rowMin (X m c) (Y m c) b cc := by
  have hN : t.val < 128 := lt_of_lt_of_eq t.isLt (show cfg0.N = 128 from N_0)
  have h0 : ¬t.val % 16 = 0 := by omega
  have e := outsAt0_C m c t h0 h15
  have e1 := congrArg (fun z => z.1) e
  dsimp only at e1
  have e3 := congrArg (fun z => z.2.2.1) e
  dsimp only at e3
  rw [e1]
  refine (PieceValue.oC2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h15) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 cc).trans ?_
  rw [← e3]
  refine ((inv m c t.val t.isLt b hb cc).1.trans ?_)
  rw [h15, Chamfer.rowAcc_last]
  rfl

/-- At the last point of a batch the second output receives the least distances of the second set's points. -/
theorem out3_last (c : Dev nD) (t : Fin cfg0.N) (h15 : t.val % 16 = 15) (b : Fin 8) (hb : b.val = t.val / 16) (cc : Fin 4096) :
    (outsAt0 m c t.val t.isLt).2.1 (ix3 (0 : Fin 1) (0 : Fin 1) cc) = Chamfer.colMin (X m c) (Y m c) b cc := by
  have hN : t.val < 128 := lt_of_lt_of_eq t.isLt (show cfg0.N = 128 from N_0)
  have h0 : ¬t.val % 16 = 0 := by omega
  have e := outsAt0_C m c t h0 h15
  have e1 := congrArg (fun z => z.2.1) e
  dsimp only at e1
  have e3 := congrArg (fun z => z.2.2.2) e
  dsimp only at e3
  rw [e1]
  refine (PieceValue.oC3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h15) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 cc).trans ?_
  rw [← e3]
  refine ((inv m c t.val t.isLt b hb cc).2.trans ?_)
  rw [h15, Chamfer.colAcc_last]
  rfl

end Cert.KernelIdeal.AccValue

end
-- ==== Proof.Final.lean ====
/-
  From blocks to whole arrays: what the two output arrays hold after the run.

  Each output array has shape [8, 1, 4096]; at grid point t its block is the [1, 1, 4096] row of batch ⌊t/16⌋, and the row
  is written back only at the last point of a batch (t mod 16 = 15). What is written back there is, at column cc, the least
  distance from point cc of that batch's first set to the second set (first output), respectively from point cc of the
  second set to the first (second output): the minimum over all 4096 points, because at the last point of a batch every pair
  of blocks has been met. An element (0, 0, cc) of the block at point t sits in the array at (⌊t/16⌋, 0, cc), so what point t
  writes back is the block of one function of the array's index, `G2` resp. `G3`; and every index (b, 0, p) of an array lies
  in the block of the point 16 b + 15, which writes back. Hence each array ends holding that function everywhere.
-/
import proofs.«140551_j84189948936347_2_alg».proof.Proof.Invariant
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.FinalValue

open Cert.KernelIdeal Cert.KernelIdeal.Gen Cert.KernelIdeal.BlockValue

variable (m : (ℓ : Loc nD τ sig) → Buf (Elt Ideal) ℓ)

/-- The first output array: at `(b, 0, p)` the least distance from point `p` of batch `b` of the first set to the second. -/
def G2 (c : Dev nD) : Buf (Elt Ideal) ((c : Thread nD τ).loc main_v0_0) :=
  fun i => Chamfer.rowMin (X m c) (Y m c) ⟨(i 0).val, (i 0).isLt⟩ ⟨(i 2).val, (i 2).isLt⟩

/-- The second output array: at `(b, 0, q)` the least distance from point `q` of batch `b` of the second set to the first. -/
def G3 (c : Dev nD) : Buf (Elt Ideal) ((c : Thread nD τ).loc main_v0_1) :=
  fun i => Chamfer.colMin (X m c) (Y m c) ⟨(i 0).val, (i 0).isLt⟩ ⟨(i 2).val, (i 2).isLt⟩

theorem G2_apply (c : Dev nD) (b : Fin 8) (p : Fin 4096) : G2 m c (ix3 b (0 : Fin 1) p) = Chamfer.rowMin (X m c) (Y m c) b p := rfl

theorem G3_apply (c : Dev nD) (b : Fin 8) (q : Fin 4096) : G3 m c (ix3 b (0 : Fin 1) q) = Chamfer.colMin (X m c) (Y m c) b q := rfl

/-- An index of the first output array whose batch and point coordinates are `b` and `p` reads `rowMin` there. -/
theorem G2_at (c : Dev nD) (i : S8x1x4096.Idx) (b : Fin 8) (p : Fin 4096) (hb : (i 0).val = b.val) (hp : (i 2).val = p.val) :
    G2 m c i = Chamfer.rowMin (X m c) (Y m c) b p :=
  congrArg₂ (Chamfer.rowMin (X m c) (Y m c)) (Fin.ext hb) (Fin.ext hp)

/-- An index of the second output array whose batch and point coordinates are `b` and `q` reads `colMin` there. -/
theorem G3_at (c : Dev nD) (i : S8x1x4096.Idx) (b : Fin 8) (q : Fin 4096) (hb : (i 0).val = b.val) (hq : (i 2).val = q.val) :
    G3 m c i = Chamfer.colMin (X m c) (Y m c) b q :=
  congrArg₂ (Chamfer.colMin (X m c) (Y m c)) (Fin.ext hb) (Fin.ext hq)

/-- An index of a `[1, 1, 4096]` row is `(0, 0, cc)`. -/
theorem row_idx (j : S1x1x4096.Idx) : j = ix3 (0 : Fin 1) (0 : Fin 1) (⟨(j 2).val, (j 2).isLt⟩ : Fin 4096) := by
  funext a; apply Fin.ext
  match a with
  | ⟨0, _⟩ => show (j 0).val = 0; have h : (j 0).val < 1 := (j 0).isLt; omega
  | ⟨1, _⟩ => show (j 1).val = 0; have h : (j 1).val < 1 := (j 1).isLt; omega
  | ⟨2, _⟩ => rfl

/-! ## The first output -/

/-- What a last point of a batch writes back is its block of `G2`: element `(0, 0, cc)` of the block at point `t` is the
    array's `(⌊t/16⌋, 0, cc)`. -/
theorem flushed2_eq (c : Dev nD) (t : Fin cfg0.N) (hf : (cfg0.win 2).flush t = true) :
    (dats m 0 c).flushed 2 t = ((cfg0.win 2).blk t).view.read (Elt Ideal) (G2 m c) := by
  have h15 : t.val % 16 = 15 := (flush0_2 t).mp hf
  have hN : cfg0.N = 128 := N_0
  have hb : t.val / 16 < 8 := by have := t.isLt; omega
  show (cfg0.win 2).cut (grid0.coords t) ((dats m 0 c).after 2 t) = _
  rw [after0_2]
  funext y
  rw [View.read_apply]
  show (outsAt0 m c t.val t.isLt).1 ((cfg0.win 2).xinj (grid0.coords t) y) = G2 m c (((cfg0.win 2).blk t).view.emb y)
  have h0 : (y (0 : Fin 3)).val < 1 := ((cfg0.win 2).xinj (grid0.coords t) y (0 : Fin 3)).isLt
  have h2 : (y (2 : Fin 3)).val < 4096 := ((cfg0.win 2).xinj (grid0.coords t) y (2 : Fin 3)).isLt
  rw [row_idx ((cfg0.win 2).xinj (grid0.coords t) y)]
  refine (AccValue.out2_last m c t h15 ⟨t.val / 16, hb⟩ rfl _).trans (Eq.symm ?_)
  refine G2_at m c _ _ _ ?_ ?_
  · show win0_2.index t (0 : Fin 3) * 1 + 1 * (y (0 : Fin 3)).val = t.val / 16
    rw [(index2 t).1]; omega
  · show win0_2.index t (2 : Fin 3) * 4096 + 1 * (y (2 : Fin 3)).val = (y (2 : Fin 3)).val
    rw [(index2 t).2.2]; omega

/-- Every index `(b, 0, p)` of the first output array lies in the block written back at the last point of batch `b`. -/
theorem cover2 (c : Dev nD) (i : ((cfg0.win 2).arr.view.loc (c.tc : Thread nD τ)).2.ty.Idx) :
    ∃ t : Fin cfg0.N, (cfg0.win 2).flush t = true ∧ i ∈ ((cfg0.win 2).blk t).view.set := by
  have hN : cfg0.N = 128 := N_0
  have h0 : (i 0 : Nat) < 8 := (i 0).isLt
  have h1 : (i 1 : Nat) < 1 := (i 1).isLt
  have h2 : (i 2 : Nat) < 4096 := (i 2).isLt
  obtain ⟨T, hT⟩ : ∃ T : Fin cfg0.N, T.val = 16 * (i 0 : Nat) + 15 := ⟨⟨16 * (i 0 : Nat) + 15, by omega⟩, rfl⟩
  refine ⟨T, (flush0_2 T).mpr (by omega), ?_⟩
  show i ∈ ((View.whole main_v0_0).slice (win0_2.rect T)).set
  rw [View.set_slice_whole, Rect.mem_set_unit]
  obtain ⟨e0, e1, e2⟩ := index2 T
  intro a
  match a with
  | ⟨0, _⟩ =>
    show win0_2.index T (0 : Fin 3) * 1 ≤ (i 0 : Nat) ∧ (i 0 : Nat) < win0_2.index T (0 : Fin 3) * 1 + 1
    rw [e0]; omega
  | ⟨1, _⟩ =>
    show win0_2.index T (1 : Fin 3) * 1 ≤ (i 1 : Nat) ∧ (i 1 : Nat) < win0_2.index T (1 : Fin 3) * 1 + 1
    rw [e1]; omega
  | ⟨2, _⟩ =>
    show win0_2.index T (2 : Fin 3) * 4096 ≤ (i 2 : Nat) ∧ (i 2 : Nat) < win0_2.index T (2 : Fin 3) * 4096 + 4096
    rw [e2]; omega

/-- The first output array ends holding, at `(b, 0, p)`, the least distance from point `p` of batch `b` of the first set. -/
theorem final2 (c : Dev nD) : (dats m 0 c).arrAt 2 cfg0.N = G2 m c :=
  (dats m 0 c).arrAt_eq_of_cover 2 (G2 m c) (flushed2_eq m c) (cover2 c)

/-! ## The second output -/

/-- What a last point of a batch writes back is its block of `G3`: element `(0, 0, cc)` of the block at point `t` is the
    array's `(⌊t/16⌋, 0, cc)`. -/
theorem flushed3_eq (c : Dev nD) (t : Fin cfg0.N) (hf : (cfg0.win 3).flush t = true) :
    (dats m 0 c).flushed 3 t = ((cfg0.win 3).blk t).view.read (Elt Ideal) (G3 m c) := by
  have h15 : t.val % 16 = 15 := (flush0_3 t).mp hf
  have hN : cfg0.N = 128 := N_0
  have hb : t.val / 16 < 8 := by have := t.isLt; omega
  show (cfg0.win 3).cut (grid0.coords t) ((dats m 0 c).after 3 t) = _
  rw [after0_3]
  funext y
  rw [View.read_apply]
  show (outsAt0 m c t.val t.isLt).2.1 ((cfg0.win 3).xinj (grid0.coords t) y) = G3 m c (((cfg0.win 3).blk t).view.emb y)
  have h0 : (y (0 : Fin 3)).val < 1 := ((cfg0.win 3).xinj (grid0.coords t) y (0 : Fin 3)).isLt
  have h2 : (y (2 : Fin 3)).val < 4096 := ((cfg0.win 3).xinj (grid0.coords t) y (2 : Fin 3)).isLt
  rw [row_idx ((cfg0.win 3).xinj (grid0.coords t) y)]
  refine (AccValue.out3_last m c t h15 ⟨t.val / 16, hb⟩ rfl _).trans (Eq.symm ?_)
  refine G3_at m c _ _ _ ?_ ?_
  · show win0_3.index t (0 : Fin 3) * 1 + 1 * (y (0 : Fin 3)).val = t.val / 16
    rw [(index3 t).1]; omega
  · show win0_3.index t (2 : Fin 3) * 4096 + 1 * (y (2 : Fin 3)).val = (y (2 : Fin 3)).val
    rw [(index3 t).2.2]; omega

/-- Every index `(b, 0, p)` of the second output array lies in the block written back at the last point of batch `b`. -/
theorem cover3 (c : Dev nD) (i : ((cfg0.win 3).arr.view.loc (c.tc : Thread nD τ)).2.ty.Idx) :
    ∃ t : Fin cfg0.N, (cfg0.win 3).flush t = true ∧ i ∈ ((cfg0.win 3).blk t).view.set := by
  have hN : cfg0.N = 128 := N_0
  have h0 : (i 0 : Nat) < 8 := (i 0).isLt
  have h1 : (i 1 : Nat) < 1 := (i 1).isLt
  have h2 : (i 2 : Nat) < 4096 := (i 2).isLt
  obtain ⟨T, hT⟩ : ∃ T : Fin cfg0.N, T.val = 16 * (i 0 : Nat) + 15 := ⟨⟨16 * (i 0 : Nat) + 15, by omega⟩, rfl⟩
  refine ⟨T, (flush0_3 T).mpr (by omega), ?_⟩
  show i ∈ ((View.whole main_v0_1).slice (win0_3.rect T)).set
  rw [View.set_slice_whole, Rect.mem_set_unit]
  obtain ⟨e0, e1, e2⟩ := index3 T
  intro a
  match a with
  | ⟨0, _⟩ =>
    show win0_3.index T (0 : Fin 3) * 1 ≤ (i 0 : Nat) ∧ (i 0 : Nat) < win0_3.index T (0 : Fin 3) * 1 + 1
    rw [e0]; omega
  | ⟨1, _⟩ =>
    show win0_3.index T (1 : Fin 3) * 1 ≤ (i 1 : Nat) ∧ (i 1 : Nat) < win0_3.index T (1 : Fin 3) * 1 + 1
    rw [e1]; omega
  | ⟨2, _⟩ =>
    show win0_3.index T (2 : Fin 3) * 4096 ≤ (i 2 : Nat) ∧ (i 2 : Nat) < win0_3.index T (2 : Fin 3) * 4096 + 4096
    rw [e2]; omega

/-- The second output array ends holding, at `(b, 0, q)`, the least distance from point `q` of batch `b` of the second set. -/
theorem final3 (c : Dev nD) : (dats m 0 c).arrAt 3 cfg0.N = G3 m c :=
  (dats m 0 c).arrAt_eq_of_cover 3 (G3 m c) (flushed3_eq m c) (cover3 c)

end Cert.KernelIdeal.FinalValue

end
-- ==== Proof.RefSide.lean ====
/-
  The reference program's table of distances and its two minima, read index by index on the extended reals.

  The reference computes, for every batch `b` and every pair of points `(p, q)`, the squared norms of `x_p` and `y_q`
  (sums of squares over the 128 coordinates, each begun from the word of zero), broadcasts them along a row and along a
  column of the 4096 × 4096 table, subtracts twice the inner product `⟨x_p, y_q⟩`, clamps at zero and takes the root: at
  `(b, p, q)` that is the specification's `dist`. The sums begun from zero are the bare sums, since `0 + s = s`.

  Its two reductions by minimum, from the word of +∞, along the last and along the middle axis of that table are folds of
  `min` from `⊤` over the 4096 coordinates of the dropped axis, i.e. infima over a finite set: at `(b, p)` the least
  distance from `x_p` to a point of `y` (`rowMin`), at `(b, q)` the least distance from `y_q` to a point of `x` (`colMin`).
-/
import proofs.«140551_j84189948936347_2_alg».proof.Proof.Gen.ReferenceIdeal.Run
import proofs.«140551_j84189948936347_2_alg».proof.Proof.Gen.ReferenceIdeal.Read
import proofs.«140551_j84189948936347_2_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Cert.Chamfer Idealize.ShloMosaic Idealize.ShloMosaic.ValueIdx

/-- The table of distances: at `(b, p, q)` the reference holds the distance from `x_p` to `y_q` in batch `b`. -/
theorem v15_apply (x0 x1 : (⟨S8x4096x128, .f32⟩ : BufTy).Contents (Elt Ideal)) (b : Fin 8) (p q : Fin 4096) :
    val_main_v15 (F := Ideal) x0 x1 (ix3 b p q) = Chamfer.dist x0 x1 b p q := by
  unfold Chamfer.dist distOf sqn cross
  simp only [val_main_v15_apply, val_main_v14_apply, val_main_v12_apply, val_main_v13_apply, val_main_v9_apply,
    val_main_v11_apply, val_main_v7_apply, val_main_v8_apply, val_main_v2_apply, val_main_v5_apply, val_main_v1_apply,
    val_main_v4_apply, val_main_v6_apply, val_main_v10_apply, val_main_v0_apply, val_main_v3_apply, val_main_cst_apply,
    val_main_cst_0_apply, val_main_cst_1_apply, val_main_cst_2_apply]
  -- the composed index maps of the broadcasts, the sums and the contraction, at `(b, p, q)` and coordinate `k`
  have h1 : ∀ k : Fin 128, idx_main_v1 (idx_main_v2 (idx_main_v7 (ix3 b p q))) k = ix3 b p k := fun k =>
    funext fun a => by match a with | ⟨0, _⟩ => rfl | ⟨1, _⟩ => rfl | ⟨2, _⟩ => rfl
  have h4 : ∀ k : Fin 128, idx_main_v4 (idx_main_v5 (idx_main_v8 (ix3 b p q))) k = ix3 b q k := fun k =>
    funext fun a => by match a with | ⟨0, _⟩ => rfl | ⟨1, _⟩ => rfl | ⟨2, _⟩ => rfl
  have hl : ∀ k : Fin 128, lidx_main_v6 (ix3 b p q) k = ix3 b p k := fun k =>
    funext fun a => by match a with | ⟨0, _⟩ => rfl | ⟨1, _⟩ => rfl | ⟨2, _⟩ => rfl
  have hr : ∀ k : Fin 128, ridx_main_v6 (ix3 b p q) k = ix3 b q k := fun k =>
    funext fun a => by match a with | ⟨0, _⟩ => rfl | ⟨1, _⟩ => rfl | ⟨2, _⟩ => rfl
  -- a sum begun from the word of zero is the bare sum
  have hz : ∀ s : EReal, Ideal.ofBits .f32 0x00000000#32 + s = s := fun s => by rw [Ideal.ofBits_zero_f32, zero_add]
  simp only [h1, h4, hl, hr, Ideal.mulf_def, Ideal.addf_def, Ideal.subf_def, Ideal.maximumf_def, Ideal.hostUnary_sqrt_def,
    Ideal.ofBits_def, hz]

/-- Over the pair `(b, p)`, the index with coordinate `k` inserted on the last axis is `(b, p, k)`. -/
theorem lift_last (h : S8x4096x4096.Reduces [2] S8x4096) (b : Fin 8) (p : Fin 4096) (k : Fin (S8x4096x4096.size 2)) :
    h.lift (ix2 b p) k = ix3 b p (⟨k.val, k.isLt⟩ : Fin 4096) := by
  funext c; apply Fin.ext
  fin_cases c <;> rfl

/-- Over the pair `(b, q)`, the index with coordinate `k` inserted on the middle axis is `(b, k, q)`. -/
theorem lift_mid (h : S8x4096x4096.Reduces [1] S8x4096) (b : Fin 8) (q : Fin 4096) (k : Fin (S8x4096x4096.size 1)) :
    h.lift (ix2 b q) k = ix3 b (⟨k.val, k.isLt⟩ : Fin 4096) q := by
  funext c; apply Fin.ext
  fin_cases c <;> rfl

/-- The minimum along the last axis: at `(b, p)` the least distance from `x_p` to a point of `y`. -/
theorem v16_apply (x0 x1 : (⟨S8x4096x128, .f32⟩ : BufTy).Contents (Elt Ideal)) (b : Fin 8) (p : Fin 4096) :
    val_main_v16 (F := Ideal) x0 x1 (ix2 b p) = rowMin x0 x1 b p := by
  unfold val_main_v16 rowMin
  have h : S8x4096x4096.Reduces [2] S8x4096 := by decide
  refine (Host.reduce_eq_fold_single (α := Ideal .f32) (FloatOps.minimumf (F := Ideal) (φ := .f32)) (val_main_v15 (F := Ideal) x0 x1) (val_main_cst_3 (F := Ideal))
    reducesTo_S8x4096x4096_S8x4096_d2 h h_S_ (ix2 b p)).trans ?_
  rw [val_main_cst_3_apply, Ideal.ofBits_def, ofBits_posInf]
  refine (fold_min_top _ _).trans ?_
  refine Finset.inf_congr rfl fun k _ => ?_
  show val_main_v15 (F := Ideal) x0 x1 (h.lift (ix2 b p) k) = _
  rw [lift_last h b p k]
  exact v15_apply x0 x1 b p ⟨k.val, k.isLt⟩

/-- The minimum along the middle axis: at `(b, q)` the least distance from `y_q` to a point of `x`. -/
theorem v17_apply (x0 x1 : (⟨S8x4096x128, .f32⟩ : BufTy).Contents (Elt Ideal)) (b : Fin 8) (q : Fin 4096) :
    val_main_v17 (F := Ideal) x0 x1 (ix2 b q) = colMin x0 x1 b q := by
  unfold val_main_v17 colMin
  have h : S8x4096x4096.Reduces [1] S8x4096 := by decide
  refine (Host.reduce_eq_fold_single (α := Ideal .f32) (FloatOps.minimumf (F := Ideal) (φ := .f32)) (val_main_v15 (F := Ideal) x0 x1) (val_main_cst_4 (F := Ideal))
    reducesTo_S8x4096x4096_S8x4096_d1 h h_S_ (ix2 b q)).trans ?_
  rw [val_main_cst_4_apply, Ideal.ofBits_def, ofBits_posInf]
  refine (fold_min_top _ _).trans ?_
  refine Finset.inf_congr rfl fun k _ => ?_
  show val_main_v15 (F := Ideal) x0 x1 (h.lift (ix2 b q) k) = _
  rw [lift_mid h b q k]
  exact v15_apply x0 x1 b ⟨k.val, k.isLt⟩ q

end Cert.ReferenceIdeal.RefValue

end
-- ==== Proof.LibMidUnit.lean ====
/-
  Dropping a unit axis from the middle of a rank-3 array.

  An `[a, 1, b]` array reshaped to `[a, b]` holds, at `(i, j)`, the entry `(i, 0, j)`: both indices sit at the same
  row-major position `i · b + j`.
-/
import Idealize.ShloMosaic.Lib.Pipeline.Value
import Idealize.ShloMosaic.Lib.ValueIdx

noncomputable section

namespace Cert.LibMidUnit

open Idealize.ShloMosaic Idealize.ShloMosaic.ValueIdx

variable {α : Type}

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

end Cert.LibMidUnit

end
-- ==== Proof.Bridge.lean ====
/-
  The two tables of least distances, on both sides.

  The first program's two output arrays, with their unit middle axis dropped, are the tables of least distances
  `rowMin` and `colMin` of the two point sets; the second program's two minimum reductions of its full distance array are
  the same two tables. So, entry by entry, the tables the two programs weigh and sum are equal.
-/
import proofs.«140551_j84189948936347_2_alg».proof.Proof.Tail
import proofs.«140551_j84189948936347_2_alg».proof.Proof.Final
import proofs.«140551_j84189948936347_2_alg».proof.Proof.RefSide
import proofs.«140551_j84189948936347_2_alg».proof.Proof.LibMidUnit

noncomputable section

open Idealize.ShloMosaic Idealize.ShloMosaic.TcCoe Idealize.SL.Sem Idealize.ShloMosaic.ValueIdx

namespace Cert.Proof.Bridge

variable (m : (ℓ : Loc Cert.KernelIdeal.nD Cert.KernelIdeal.τ Cert.KernelIdeal.sig) → Buf (Elt Ideal) ℓ)

/-- The first output array without its unit axis is the table of least distances of the first set's points, which is
    the second program's minimum along the last axis of its distance array. -/
theorem rows_eq (c : Dev Cert.KernelIdeal.nD) :
    Cert.KernelIdeal.TailValue.rows m c
      = Cert.ReferenceIdeal.Read.val_main_v16 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  unfold Cert.KernelIdeal.TailValue.rows
  rw [Cert.KernelIdeal.FinalValue.final2 m c]
  funext i
  obtain ⟨b, p, rfl⟩ : ∃ (b : Fin 8) (p : Fin 4096), i = ix2 b p := ⟨i 0, i 1, eq_ix2 i⟩
  rw [Cert.ReferenceIdeal.RefValue.v16_apply]
  exact (Cert.LibMidUnit.shapeCast_a1b_ab_apply _ _ b p).trans (Cert.KernelIdeal.FinalValue.G2_apply m c b p)

/-- The second output array without its unit axis is the table of least distances of the second set's points, which is
    the second program's minimum along the middle axis of its distance array. -/
theorem cols_eq (c : Dev Cert.KernelIdeal.nD) :
    Cert.KernelIdeal.TailValue.cols m c
      = Cert.ReferenceIdeal.Read.val_main_v17 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  unfold Cert.KernelIdeal.TailValue.cols
  rw [Cert.KernelIdeal.FinalValue.final3 m c]
  funext i
  obtain ⟨b, q, rfl⟩ : ∃ (b : Fin 8) (q : Fin 4096), i = ix2 b q := ⟨i 0, i 1, eq_ix2 i⟩
  rw [Cert.ReferenceIdeal.RefValue.v17_apply]
  exact (Cert.LibMidUnit.shapeCast_a1b_ab_apply _ _ b q).trans (Cert.KernelIdeal.FinalValue.G3_apply m c b q)

end Cert.Proof.Bridge

end
-- ==== Proof.lean ====
/-
  The weighted two-sided nearest-neighbour distance of two point sets, computed two ways, is one number.

  Both programs take 8 batches of two sets of 4096 points in 128 coordinates and two tables of weights. For every pair
  of points the distance is `sqrt (max (|x|² + |y|² - 2 ⟨x, y⟩) 0)`; `rowMin` is each first-set point's least distance to
  the second set, `colMin` each second-set point's least distance to the first, and the result is
  `(Σ w1 · rowMin + Σ w2 · colMin) / 2`.

  The first program walks each batch's 4 × 4 pairs of 1024-point blocks in row-major order, keeping two running rows of
  minima that start at the top element at the first pair and are copied out after the last; the second forms the whole
  4096 × 4096 table and takes the two minima over it. On the extended reals a minimum does not depend on how its index
  set is cut up, so after the sixteenth pair the running rows ARE the minima over all 4096 points (the induction over
  the points of a batch); the squared norms, the inner products, the clamp and the root are the same expressions on
  both sides, a change of float format being the identity; and the final weighted sums are the same operations applied
  to equal tables. No finiteness of the inputs is used: nothing is distributed or cancelled.

  The three frames are the generated ones (the second program's is its generated run with the result dropped); the
  idealization rewrote nothing.
-/
import proofs.«140551_j84189948936347_2_alg».proof.Defs
import proofs.«140551_j84189948936347_2_alg».proof.Proof.Gen.Kernel
import proofs.«140551_j84189948936347_2_alg».proof.Proof.Gen.Kernel.Skeleton
import proofs.«140551_j84189948936347_2_alg».proof.Proof.Gen.Kernel.Launch
import proofs.«140551_j84189948936347_2_alg».proof.Proof.Gen.Kernel.Points
import proofs.«140551_j84189948936347_2_alg».proof.Proof.Gen.Kernel.Frame
import proofs.«140551_j84189948936347_2_alg».proof.Proof.Gen.KernelIdeal
import proofs.«140551_j84189948936347_2_alg».proof.Proof.Gen.KernelIdeal.Skeleton
import proofs.«140551_j84189948936347_2_alg».proof.Proof.Gen.KernelIdeal.Launch
import proofs.«140551_j84189948936347_2_alg».proof.Proof.Gen.KernelIdeal.Points
import proofs.«140551_j84189948936347_2_alg».proof.Proof.Gen.KernelIdeal.Frame
import proofs.«140551_j84189948936347_2_alg».proof.Proof.Gen.ReferenceIdeal
import proofs.«140551_j84189948936347_2_alg».proof.Proof.Gen.Pre_finite_inputs
import Idealize.ShloMosaic.Adequacy
import Idealize.ShloMosaic.Init
import proofs.«140551_j84189948936347_2_alg».proof.Proof.Gen.ReferenceIdeal.Run
import proofs.«140551_j84189948936347_2_alg».proof.Proof.Gen.ReferenceIdeal.Read
import proofs.«140551_j84189948936347_2_alg».proof.Proof.Bridge

noncomputable section

namespace Cert.Proof

open Idealize.ShloMosaic Idealize.SL.Sem Cert.Kernel

/-- The first program runs and leaves its arguments as they were (read at the word level). -/
theorem frame_k : Cert.frame_Kernel := fun m ρ _ => Cert.Kernel.Gen.frame m ρ

/-- The same for its reading on the extended reals. -/
theorem frame_ki : Cert.frame_KernelIdeal := fun m ρ _ => Cert.KernelIdeal.Gen.frame m ρ

/-- The second program runs and leaves its arguments as they were: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From equal arguments both programs end with `(Σ w1 · rowMin + Σ w2 · colMin) / 2`: the first program's result is the
    weighted combination of its two output arrays, the second's the same combination of its two minimum reductions, and
    those tables are equal entry by entry. -/
theorem algebraic : Cert.algebraic_KernelIdeal_ReferenceIdeal := by
  intro m ρ m' ρ' _ hagree
  refine ⟨_, Cert.KernelIdeal.TailValue.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.TailValue.ref_tail,
    (hagree c).1, (hagree c).2.1, (hagree c).2.2.1, (hagree c).2.2.2,
    ← Bridge.rows_eq m c, ← Bridge.cols_eq m c]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
